-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x6144 : Shape := ⟨2, ![128, 6144]⟩
abbrev S6144 : Shape := ⟨1, ![6144]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x6144 : S_.BroadcastsInDim S128x6144 (![] : Fin 0 → Fin S128x6144.rank)
  reducesTo_S128x6144_S_d0_1 : S128x6144.ReducesTo [0, 1] S_
  bcast_S_S6144 : S_.BroadcastsInDim S6144 (![] : Fin 0 → Fin S6144.rank)
  reducesTo_S6144_S_d0 : S6144.ReducesTo [0] S_

variable [Facts]

def fn_part1 {F : FTy → Type} [FloatOps F] (main_arg5 : FVec F S128 .f32) (main_arg6 : FVec F S128x6144 .f32) (main_arg7 : FVec F S6144 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x6144 .f32 := Host.absf main_arg6
  let main_cst_8 : FVec F S_ .f32 := constant S_ .f32 0x7F800000#32
  let main_v25 : FVec F S128x6144 .f32 := broadcastInDim S128x6144 ![] bcast_S_S128x6144 main_cst_8
  let main_v26 : IVec S128x6144 1 := cmpf .olt main_v24 main_v25
  let main_c_9 : IVec S_ 1 := constantI S_ 1 1#1
  let main_v27 : IVec S_ 1 := (fun x v => Host.reduce IntOp.andi x v reducesTo_S128x6144_S_d0_1 h_S_) main_v26 main_c_9
  let main_v28 : IVec S_ 1 := andi main_v23 main_v27
  let main_v29 : FVec F S6144 .f32 := Host.absf main_arg7
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  main_v33

def fn {F : FTy → Type} [FloatOps F] (main_arg0 : FVec F S100000x3 .f32) (main_arg1 : IVec S100000 32) (main_arg2 : FVec F S3x128 .f32) (main_arg3 : FVec F S128 .f32) (main_arg4 : FVec F S128x128 .f32) (main_arg5 : FVec F S128 .f32) (main_arg6 : FVec F S128x6144 .f32) (main_arg7 : FVec F S6144 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x3 : Shape := ⟨2, ![100000, 3]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x6144 : Shape := ⟨2, ![128, 6144]⟩
abbrev S6144 : Shape := ⟨1, ![6144]⟩
abbrev S_ : Shape := ⟨0, ![]⟩
abbrev S102400x3 : Shape := ⟨2, ![102400, 3]⟩
abbrev S102400 : Shape := ⟨1, ![102400]⟩
abbrev S1x102400 : Shape := ⟨2, ![1, 102400]⟩
abbrev S1x128 : Shape := ⟨2, ![1, 128]⟩
abbrev S1x6144 : Shape := ⟨2, ![1, 6144]⟩
abbrev S64x6144 : Shape := ⟨2, ![64, 6144]⟩
abbrev S64x2048 : Shape := ⟨2, ![64, 2048]⟩
abbrev S4096x3 : Shape := ⟨2, ![4096, 3]⟩
abbrev S1x4096 : Shape := ⟨2, ![1, 4096]⟩
abbrev S64x128 : Shape := ⟨2, ![64, 128]⟩
abbrev S4096x128 : Shape := ⟨2, ![4096, 128]⟩
abbrev S64x4096 : Shape := ⟨2, ![64, 4096]⟩
abbrev S131072x3 : Shape := ⟨2, ![131072, 3]⟩
abbrev S131072 : Shape := ⟨1, ![131072]⟩

abbrev nBuf : Space → Nat
  | .hbm => 22
  | .vmem => 13
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x6144, .f32⟩
  | .hbm, ⟨7, _⟩ => ⟨S6144, .f32⟩
  | .hbm, ⟨8, _⟩ => ⟨S_, .i32⟩
  | .hbm, ⟨9, _⟩ => ⟨S_, .f32⟩
  | .hbm, ⟨10, _⟩ => ⟨S102400x3, .f32⟩
  | .hbm, ⟨11, _⟩ => ⟨S_, .i32⟩
  | .hbm, ⟨12, _⟩ => ⟨S_, .i32⟩
  | .hbm, ⟨13, _⟩ => ⟨S102400, .i32⟩
  | .hbm, ⟨14, _⟩ => ⟨S1x102400, .i32⟩
  | .hbm, ⟨15, _⟩ => ⟨S1x128, .f32⟩
  | .hbm, ⟨16, _⟩ => ⟨S1x128, .f32⟩
  | .hbm, ⟨17, _⟩ => ⟨S1x6144, .f32⟩
  | .hbm, ⟨18, _⟩ => ⟨S64x6144, .f32⟩
  | .hbm, ⟨19, _⟩ => ⟨S64x2048, .i32⟩
  | .hbm, ⟨20, _⟩ => ⟨S131072x3, .f32⟩
  | .hbm, ⟨21, _⟩ => ⟨S131072, .i32⟩
  | .local _ .vmem, ⟨0, _⟩ => ⟨S4096x3, .f32⟩
  | .local _ .vmem, ⟨1, _⟩ => ⟨S4096x3, .f32⟩
  | .local _ .vmem, ⟨2, _⟩ => ⟨S1x4096, .i32⟩
  | .local _ .vmem, ⟨3, _⟩ => ⟨S1x4096, .i32⟩
  | .local _ .vmem, ⟨4, _⟩ => ⟨S3x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x6144, .f32⟩
  | .local _ .vmem, ⟨9, _⟩ => ⟨S1x6144, .f32⟩
  | .local _ .vmem, ⟨10, _⟩ => ⟨S64x6144, .f32⟩
  | .local _ .vmem, ⟨11, _⟩ => ⟨S64x2048, .i32⟩
  | .local _ .vmem, ⟨12, _⟩ => ⟨S64x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x2048 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  pads_S100000x3_S102400x3_024000_000 : S100000x3.Pads (![0, 0] : Fin 2 → Nat) ![2400, 0] ![0, 0] S102400x3
  h_S_ : 0 < S_.numel
  pads_S100000_S102400_024000 : S100000.Pads (![0] : Fin 1 → Nat) ![2400] ![0] S102400
  shapeCasts_S102400_S1x102400 : S102400.ShapeCasts S1x102400
  shapeCasts_S128_S1x128 : S128.ShapeCasts S1x128
  shapeCasts_S6144_S1x6144 : S6144.ShapeCasts S1x6144
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S64x4096_d0_w32 : S64x4096.Iotas .tc 32 [0]
  broadcasts_S1x4096_S64x4096 : S1x4096.Broadcasts S64x4096
  natLt_1_32 : 1 < 32
  inb_S128x6144_S128x6144_0_0 : ∀ a, (![0, 0] : Fin 2 → Nat) a + S128x6144.size a ≤ S128x6144.size a
  h_S128x6144 : 0 < S128x6144.numel
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S64x6144 : S1x6144.Broadcasts S64x6144
  inb_S64x6144_S64x6144_0_0 : ∀ a, (![0, 0] : Fin 2 → Nat) a + S64x6144.size a ≤ S64x6144.size a
  h_S64x6144 : 0 < S64x6144.numel
  iota_S64x2048_d0_w32 : S64x2048.Iotas .tc 32 [0]
  inb_S64x2048_S64x2048_0_0 : ∀ a, (![0, 0] : Fin 2 → Nat) a + S64x2048.size a ≤ S64x2048.size a
  h_S64x2048 : 0 < S64x2048.numel
  shapeCasts_S64x6144_S131072x3 : S64x6144.ShapeCasts S131072x3
  shapeCasts_S64x2048_S131072 : S64x2048.ShapeCasts S131072
  dot_S4096x3_S3x128_S4096x128_1_0_0_1_n_n_wf : DotDims.WF S4096x3 S3x128 S4096x128 [1] [0] [0] [1] [] []
  dot_S4096x128_S128x128_S4096x128_1_0_0_1_n_n_wf : DotDims.WF S4096x128 S128x128 S4096x128 [1] [0] [0] [1] [] []
  dot_S64x4096_S4096x128_S64x128_1_0_0_1_n_n_wf : DotDims.WF S64x4096 S4096x128 S64x128 [1] [0] [0] [1] [] []
  dot_S64x128_S128x6144_S64x6144_1_0_0_1_n_n_wf : DotDims.WF S64x128 S128x6144 S64x6144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S102400x3.size a
  hwx0_0 : ∀ i : grid0.Coords, EltTy.bits .f32 = 32 ∨ (Rect.block (s := S102400x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x102400.size a
  hwx0_1 : ∀ i : grid0.Coords, EltTy.bits .i32 = 32 ∨ (Rect.block (s := S1x102400) S1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x6144.size a ≤ S128x6144.size a
  hwx0_6 : ∀ i : grid0.Coords, EltTy.bits .f32 = 32 ∨ (Rect.block (s := S128x6144) S128x6144.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x6144.size a ≤ S1x6144.size a
  hwx0_7 : ∀ i : grid0.Coords, EltTy.bits .f32 = 32 ∨ (Rect.block (s := S1x6144) S1x6144.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x6144.size a ≤ S64x6144.size a
  hwx0_8 : ∀ i : grid0.Coords, EltTy.bits .f32 = 32 ∨ (Rect.block (s := S64x6144) S64x6144.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x2048.size a ≤ S64x2048.size a
  hwx0_9 : ∀ i : grid0.Coords, EltTy.bits .i32 = 32 ∨ (Rect.block (s := S64x2048) S64x2048.size (cc0_transform_9 i) (hinb0_9 i)).WholeWords (EltTy.packing .i32)

variable [Facts₀]

def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S64x4096_S4096x128_S64x128_1_0_0_1_n_n : DotDims S64x4096 S4096x128 S64x128 where
  lhsContracting := [1]
  rhsContracting := [0]
  lhsNonContracting := [0]
  rhsNonContracting := [1]
  lhsBatch := []
  rhsBatch := []
  wf := dot_S64x4096_S4096x128_S64x128_1_0_0_1_n_n_wf
def dot_S64x128_S128x6144_S64x6144_1_0_0_1_n_n : DotDims S64x128 S128x6144 S64x6144 where
  lhsContracting := [1]
  rhsContracting := [0]
  lhsNonContracting := [0]
  rhsNonContracting := [1]
  lhsBatch := []
  rhsBatch := []
  wf := dot_S64x128_S128x6144_S64x6144_1_0_0_1_n_n_wf

abbrev win0_0 : Pipeline.Window sig grid0 :=
  Pipeline.Window.ofSpec (Memref.whole main_v0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x6144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x6144.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S64x6144.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S64x2048.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S100000x3 : Shape := ⟨2, ![100000, 3]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x6144 : Shape := ⟨2, ![128, 6144]⟩
abbrev S6144 : Shape := ⟨1, ![6144]⟩
abbrev S_ : Shape := ⟨0, ![]⟩
abbrev S100000x128 : Shape := ⟨2, ![100000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x6144 : Shape := ⟨2, ![64, 6144]⟩
abbrev S1x6144 : Shape := ⟨2, ![1, 6144]⟩
abbrev S131072x3 : Shape := ⟨2, ![131072, 3]⟩
abbrev S64x2048 : Shape := ⟨2, ![64, 2048]⟩
abbrev S131072 : Shape := ⟨1, ![131072]⟩
abbrev S131072x1 : Shape := ⟨2, ![131072, 1]⟩

abbrev nBuf : Space → Nat
  | .hbm => 50
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000, .i32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x6144, .f32⟩
  | .hbm, ⟨7, _⟩ => ⟨S6144, .f32⟩
  | .hbm, ⟨8, _⟩ => ⟨S_, .f32⟩
  | .hbm, ⟨9, _⟩ => ⟨S100000x3, .f32⟩
  | .hbm, ⟨10, _⟩ => ⟨S100000x3, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S100000x128, .f32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S64x128, .f32⟩
  | .hbm, ⟨27, _⟩ => ⟨S100000x1, .i32⟩
  | .hbm, ⟨28, _⟩ => ⟨S64x128, .f32⟩
  | .hbm, ⟨29, _⟩ => ⟨S64, .i32⟩
  | .hbm, ⟨30, _⟩ => ⟨S64x6144, .f32⟩
  | .hbm, ⟨31, _⟩ => ⟨S1x6144, .f32⟩
  | .hbm, ⟨32, _⟩ => ⟨S64x6144, .f32⟩
  | .hbm, ⟨33, _⟩ => ⟨S64x6144, .f32⟩
  | .hbm, ⟨34, _⟩ => ⟨S131072x3, .f32⟩
  | .hbm, ⟨35, _⟩ => ⟨S64, .i32⟩
  | .hbm, ⟨36, _⟩ => ⟨S64x2048, .i32⟩
  | .hbm, ⟨37, _⟩ => ⟨S131072, .i32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S131072, .i32⟩
  | .hbm, ⟨47, _⟩ => ⟨S_, .f32⟩
  | .hbm, ⟨48, _⟩ => ⟨S131072x3, .f32⟩
  | .hbm, ⟨49, _⟩ => ⟨S131072x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S100000x3 : S_.BroadcastsInDim S100000x3 (![] : Fin 0 → Fin S100000x3.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S6144_S1x6144_1 : S6144.BroadcastsInDim S1x6144 (![1] : Fin 1 → Fin S1x6144.rank)
  bcast_S1x6144_S64x6144_0_1 : S1x6144.BroadcastsInDim S64x6144 (![0, 1] : Fin 2 → Fin S64x6144.rank)
  shapeCasts_S64x6144_S131072x3 : S64x6144.ShapeCasts S131072x3
  bcast_S64_S64x2048_0 : S64.BroadcastsInDim S64x2048 (![0] : Fin 1 → Fin S64x2048.rank)
  shapeCasts_S64x2048_S131072 : S64x2048.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x3 : S_.BroadcastsInDim S131072x3 (![] : Fin 0 → Fin S131072x3.rank)
  dot_S100000x3_S3x128_S100000x128_1_0_0_1_n_n_wf : DotDims.WF S100000x3 S3x128 S100000x128 [1] [0] [0] [1] [] []
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  dot_S64x128_S128x6144_S64x6144_1_0_0_1_n_n_wf : DotDims.WF S64x128 S128x6144 S64x6144 [1] [0] [0] [1] [] []
  gather_S64_S131072x1_S131072_n_0_n_n_0_1_1_wf : GatherDims.WF S64 S131072x1 S131072 [] [0] [] [0] [] 1 ![1]

variable [Facts₀]

def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x6144_S64x6144_1_0_0_1_n_n : DotDims S64x128 S128x6144 S64x6144 where
  lhsContracting := [1]
  rhsContracting := [0]
  lhsNonContracting := [0]
  rhsNonContracting := [1]
  lhsBatch := []
  rhsBatch := []
  wf := dot_S64x128_S128x6144_S64x6144_1_0_0_1_n_n_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf

class Facts : Prop extends Facts₀ where

variable [Facts]
-- ==== Proof.KernelPieces.lean ====
/-
  What each of the body's three control cases leaves behind, as values.

  The body keeps a 64 × 128 accumulator across the grid. At the first point it stores zeros, reads them back and
  stores `accumulate` of them and the point's blocks; at every later point it stores `accumulate` of what the
  point before left; at the last point it also reads the fresh accumulator back, stores the decoder's value of it
  into the first output, and an iota into the second. Each store covers its whole buffer, so what a case leaves is
  the last store's value: the body's arithmetic as the generated payload terms, nothing else.
-/
import proofs.«158518_g44641890074844_cont_8to1c4_263_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The accumulator after one point, from the point's blocks and the accumulator `acc` it found. -/
abbrev accumulate (x0 : Vec F S4096x3 .f32) (x1 : Vec F S1x4096 .i32) (x2 : Vec F S3x128 .f32) (x3 : Vec F S1x128 .f32)
    (x4 : Vec F S128x128 .f32) (x5 : Vec F S1x128 .f32) (acc : Vec F S64x128 .f32) : Vec F S64x128 .f32 :=
  k0_pay1 (k0_pay4 x0 x2 x3 x4 x5 x1 acc)

/-- A later point that is not the last: the accumulator goes from `xs0` to `accumulate … xs0`. -/
theorem scratch_B (c : Dev nD) (i : grid0.Coords) (arg1 : Memref sig .tc .vmem S4096x3 .f32) (harg1 : arg1.IsWhole) (arg2 : Memref sig .tc .vmem S1x4096 .i32) (harg2 : arg2.IsWhole) (arg3 : Memref sig .tc .vmem S3x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x6144 .f32) (harg7 : arg7.IsWhole) (arg8 : Memref sig .tc .vmem S1x6144 .f32) (harg8 : arg8.IsWhole) (arg9 : Memref sig .tc .vmem S64x6144 .f32) (harg9 : arg9.IsWhole) (arg10 : Memref sig .tc .vmem S64x2048 .i32) (harg10 : arg10.IsWhole) (arg11 : Memref sig .tc .vmem S64x128 .f32) (harg11 : arg11.IsWhole) (hc0 : ¬cond0_0 i) (hc1 : ¬cond0_1 i) (x0 : Vec F S4096x3 .f32) (x1 : Vec F S1x4096 .i32) (x2 : Vec F S3x128 .f32) (x3 : Vec F S1x128 .f32) (x4 : Vec F S128x128 .f32) (x5 : Vec F S1x128 .f32) (x6 : Vec F S128x6144 .f32) (x7 : Vec F S1x6144 .f32) (xs0 : Vec F S64x128 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = accumulate x0 x1 x2 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096x3) hz, View.ld_unit_zero (S := S1x4096) hz, View.ld_unit_zero (S := S3x128) hz, View.ld_unit_zero (S := S1x128) hz, View.ld_unit_zero (S := S128x128) hz, View.ld_unit_zero (S := S128x6144) hz, View.ld_unit_zero (S := S1x6144) hz, View.ld_unit_zero (S := S64x6144) hz, View.ld_unit_zero (S := S64x2048) hz, View.ld_unit_zero (S := S64x128) hz]

/-- The last point: the same step of the accumulator. -/
theorem scratch_C (c : Dev nD) (i : grid0.Coords) (arg1 : Memref sig .tc .vmem S4096x3 .f32) (harg1 : arg1.IsWhole) (arg2 : Memref sig .tc .vmem S1x4096 .i32) (harg2 : arg2.IsWhole) (arg3 : Memref sig .tc .vmem S3x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x6144 .f32) (harg7 : arg7.IsWhole) (arg8 : Memref sig .tc .vmem S1x6144 .f32) (harg8 : arg8.IsWhole) (arg9 : Memref sig .tc .vmem S64x6144 .f32) (harg9 : arg9.IsWhole) (arg10 : Memref sig .tc .vmem S64x2048 .i32) (harg10 : arg10.IsWhole) (arg11 : Memref sig .tc .vmem S64x128 .f32) (harg11 : arg11.IsWhole) (hc0 : ¬cond0_0 i) (hc1 : cond0_1 i) (x0 : Vec F S4096x3 .f32) (x1 : Vec F S1x4096 .i32) (x2 : Vec F S3x128 .f32) (x3 : Vec F S1x128 .f32) (x4 : Vec F S128x128 .f32) (x5 : Vec F S1x128 .f32) (x6 : Vec F S128x6144 .f32) (x7 : Vec F S1x6144 .f32) (xs0 : Vec F S64x128 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = accumulate x0 x1 x2 x3 x4 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096x3) hz, View.ld_unit_zero (S := S1x4096) hz, View.ld_unit_zero (S := S3x128) hz, View.ld_unit_zero (S := S1x128) hz, View.ld_unit_zero (S := S128x128) hz, View.ld_unit_zero (S := S128x6144) hz, View.ld_unit_zero (S := S1x6144) hz, View.ld_unit_zero (S := S64x6144) hz, View.ld_unit_zero (S := S64x2048) hz, View.ld_unit_zero (S := S64x128) hz]

/-- The last point's first output: the decoder's value of the fresh accumulator. -/
theorem out8_C (c : Dev nD) (i : grid0.Coords) (arg1 : Memref sig .tc .vmem S4096x3 .f32) (harg1 : arg1.IsWhole) (arg2 : Memref sig .tc .vmem S1x4096 .i32) (harg2 : arg2.IsWhole) (arg3 : Memref sig .tc .vmem S3x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x6144 .f32) (harg7 : arg7.IsWhole) (arg8 : Memref sig .tc .vmem S1x6144 .f32) (harg8 : arg8.IsWhole) (arg9 : Memref sig .tc .vmem S64x6144 .f32) (harg9 : arg9.IsWhole) (arg10 : Memref sig .tc .vmem S64x2048 .i32) (harg10 : arg10.IsWhole) (arg11 : Memref sig .tc .vmem S64x128 .f32) (harg11 : arg11.IsWhole) (hc0 : ¬cond0_0 i) (hc1 : cond0_1 i) (x0 : Vec F S4096x3 .f32) (x1 : Vec F S1x4096 .i32) (x2 : Vec F S3x128 .f32) (x3 : Vec F S1x128 .f32) (x4 : Vec F S128x128 .f32) (x5 : Vec F S1x128 .f32) (x6 : Vec F S128x6144 .f32) (x7 : Vec F S1x6144 .f32) (xs0 : Vec F S64x128 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (accumulate x0 x1 x2 x3 x4 x5 xs0) x6 x7 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readCov_unit_zero (S := S64x128) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096x3) hz, View.ld_unit_zero (S := S1x4096) hz, View.ld_unit_zero (S := S3x128) hz, View.ld_unit_zero (S := S1x128) hz, View.ld_unit_zero (S := S128x128) hz, View.ld_unit_zero (S := S128x6144) hz, View.ld_unit_zero (S := S1x6144) hz, View.ld_unit_zero (S := S64x6144) hz, View.ld_unit_zero (S := S64x2048) hz, View.ld_unit_zero (S := S64x128) hz]

/-- The last point's second output: the row number of each entry. -/
theorem out9_C (c : Dev nD) (i : grid0.Coords) (arg1 : Memref sig .tc .vmem S4096x3 .f32) (harg1 : arg1.IsWhole) (arg2 : Memref sig .tc .vmem S1x4096 .i32) (harg2 : arg2.IsWhole) (arg3 : Memref sig .tc .vmem S3x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x6144 .f32) (harg7 : arg7.IsWhole) (arg8 : Memref sig .tc .vmem S1x6144 .f32) (harg8 : arg8.IsWhole) (arg9 : Memref sig .tc .vmem S64x6144 .f32) (harg9 : arg9.IsWhole) (arg10 : Memref sig .tc .vmem S64x2048 .i32) (harg10 : arg10.IsWhole) (arg11 : Memref sig .tc .vmem S64x128 .f32) (harg11 : arg11.IsWhole) (hc0 : ¬cond0_0 i) (hc1 : cond0_1 i) (x0 : Vec F S4096x3 .f32) (x1 : Vec F S1x4096 .i32) (x2 : Vec F S3x128 .f32) (x3 : Vec F S1x128 .f32) (x4 : Vec F S128x128 .f32) (x5 : Vec F S1x128 .f32) (x6 : Vec F S128x6144 .f32) (x7 : Vec F S1x6144 .f32) (xs0 : Vec F S64x128 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = iota .tc S64x2048 32 [0] iota_S64x2048_d0_w32 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]

/-- The first point: the accumulator is zeroed, then stepped. -/
theorem scratch_A (c : Dev nD) (i : grid0.Coords) (arg1 : Memref sig .tc .vmem S4096x3 .f32) (harg1 : arg1.IsWhole) (arg2 : Memref sig .tc .vmem S1x4096 .i32) (harg2 : arg2.IsWhole) (arg3 : Memref sig .tc .vmem S3x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x6144 .f32) (harg7 : arg7.IsWhole) (arg8 : Memref sig .tc .vmem S1x6144 .f32) (harg8 : arg8.IsWhole) (arg9 : Memref sig .tc .vmem S64x6144 .f32) (harg9 : arg9.IsWhole) (arg10 : Memref sig .tc .vmem S64x2048 .i32) (harg10 : arg10.IsWhole) (arg11 : Memref sig .tc .vmem S64x128 .f32) (harg11 : arg11.IsWhole) (hc0 : cond0_0 i) (hc1 : ¬cond0_1 i) (x0 : Vec F S4096x3 .f32) (x1 : Vec F S1x4096 .i32) (x2 : Vec F S3x128 .f32) (x3 : Vec F S1x128 .f32) (x4 : Vec F S128x128 .f32) (x5 : Vec F S1x128 .f32) (x6 : Vec F S128x6144 .f32) (x7 : Vec F S1x6144 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 = accumulate x0 x1 x2 x3 x4 x5 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S64x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4096x3) hz, View.ld_unit_zero (S := S1x4096) hz, View.ld_unit_zero (S := S3x128) hz, View.ld_unit_zero (S := S1x128) hz, View.ld_unit_zero (S := S128x128) hz, View.ld_unit_zero (S := S128x6144) hz, View.ld_unit_zero (S := S1x6144) hz, View.ld_unit_zero (S := S64x6144) hz, View.ld_unit_zero (S := S64x2048) hz, View.ld_unit_zero (S := S64x128) hz, View.readCov_unit_zero (S := S64x128) _ hz]

end Cert.KernelIdeal.Pieces

end
-- ==== Proof.PointCloudSpec.lean ====
/-
  The function both programs compute, written once over plain finite index types.

  A point `x : Fin 3 → EReal` goes through two dense layers with a rectified linear unit each
  (`hidden`); the encoder adds up the hidden vectors of all points carrying one segment number
  (`encoded`: a point whose segment number is none of 0 … 63 is counted nowhere); the decoder is one more
  affine map, scaled by the unit radius, whose 6144 outputs per segment are read as 2048 points of 3
  coordinates (`points`); and the new segment number of output point `k` is `k / 2048` (`clusterIds`).
  Everything is on the extended reals; no finiteness is used anywhere.
-/
import Idealize.ShloMosaic.PureOps.Ideal
import Idealize.ShloMosaic.PureOps.Ideal.Laws
import Idealize.ShloMosaic.Lib.ValueIdx

noncomputable section

namespace Cert.PointCloud

open Idealize.ShloMosaic Idealize.ShloMosaic.ValueIdx

/-- The radius both programs scale by: the f32 word of `1.0`, kept as a word (it is the same word on both sides). -/
abbrev radius : EReal := Ideal.ofBits .f32 0x3F800000#32

/-- One dense layer followed by a rectified linear unit: `max (x · W + b) 0`, entry `j`. -/
def dense {n k : ℕ} (W : Fin n → Fin k → EReal) (b : Fin k → EReal) (x : Fin n → EReal) (j : Fin k) : EReal :=
  max ((∑ i : Fin n, x i * W i j) + b j) 0

/-- The per-point network: two dense layers. -/
def hidden (W1 : Fin 3 → Fin 128 → EReal) (b1 : Fin 128 → EReal) (W2 : Fin 128 → Fin 128 → EReal) (b2 : Fin 128 → EReal)
    (x : Fin 3 → EReal) : Fin 128 → EReal :=
  dense W2 b2 (dense W1 b1 x)

/-- The segment sum: feature `d` of segment `b` is the sum of the hidden feature `d` over the points whose
    segment word is the word of `b`. -/
def encoded (pos : Fin 100000 → Fin 3 → EReal) (seg : Fin 100000 → BitVec 32)
    (W1 : Fin 3 → Fin 128 → EReal) (b1 : Fin 128 → EReal) (W2 : Fin 128 → Fin 128 → EReal) (b2 : Fin 128 → EReal)
    (b : Fin 64) (d : Fin 128) : EReal :=
  ∑ r : Fin 100000, if seg r = BitVec.ofNat 32 b.val then hidden W1 b1 W2 b2 (pos r) d else 0

/-- The decoder: an affine map of a segment's 128 features to 6144 numbers, times the radius. -/
def decoded (enc : Fin 64 → Fin 128 → EReal) (DW : Fin 128 → Fin 6144 → EReal) (db : Fin 6144 → EReal)
    (b : Fin 64) (j : Fin 6144) : EReal :=
  ((∑ d : Fin 128, enc b d * DW d j) + db j) * radius

/-- Output point `k`, coordinate `c`: entry `3 k + c` of the row-major list of the decoder's 64 × 6144 numbers. -/
def points (dec : Fin 64 → Fin 6144 → EReal) (k : Fin 131072) (c : Fin 3) : EReal :=
  dec ⟨(3 * k.val + c.val) / 6144, by have := k.isLt; have := c.isLt; omega⟩
      ⟨(3 * k.val + c.val) % 6144, Nat.mod_lt _ (by decide)⟩

/-- The new segment number of output point `k`. -/
def clusterIds (k : Fin 131072) : BitVec 32 := BitVec.ofNat 32 (k.val / 2048)

/-! ## The same over arrays -/

/-- The result points as one function of the eight argument arrays. -/
def pointsArr (pos : (⟨2, ![100000, 3]⟩ : Shape).Idx → EReal) (seg : (⟨1, ![100000]⟩ : Shape).Idx → BitVec 32)
    (W1 : (⟨2, ![3, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (DW : (⟨2, ![128, 6144]⟩ : Shape).Idx → EReal) (db : (⟨1, ![6144]⟩ : Shape).Idx → EReal) :
    (⟨2, ![131072, 3]⟩ : Shape).Idx → EReal :=
  fun i => points (decoded (encoded (fun r k => pos (ix2 r k)) (fun r => seg (ix1 r)) (fun k j => W1 (ix2 k j))
      (fun j => b1 (ix1 j)) (fun k j => W2 (ix2 k j)) (fun j => b2 (ix1 j))) (fun d j => DW (ix2 d j)) (fun j => db (ix1 j)))
    (i 0) (i 1)

/-- The result segment numbers as an array. -/
def clusterIdsArr : (⟨1, ![131072]⟩ : Shape).Idx → BitVec 32 := fun i => clusterIds (i 0)

/-- The radius word is the number one. -/
theorem radius_eq_one : radius = 1 := IdealRules.sign_bit.ideal_onePat .f32

end Cert.PointCloud

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.KernelPayload.lean ====
/-
  The body's arithmetic read at one entry, on the extended reals.

  * An entry `(b, r)` of the one-hot matrix is `1` when point `r`'s segment word is the word of `b`, else `0`.
  * A dense layer of the body (a product into a zero accumulator, a bias row, a maximum with zero) is, at
    `(p, q)`, `max (∑ k, x (p, k) * w (k, q) + bias q) 0`.
  * One step of the accumulator adds, at `(b, d)`, the hidden feature `d` of every point of the block whose
    segment is `b`: the product with the one-hot matrix is a sum of `1 * h` and `0 * h`.
  * The decoder is the affine map times the radius.
-/
import proofs.«158518_g44641890074844_cont_8to1c4_263_1_alg».proof.Proof.Gen.KernelIdeal.Skeleton
import proofs.«158518_g44641890074844_cont_8to1c4_263_1_alg».proof.Proof.PointCloudSpec
import proofs.«158518_g44641890074844_cont_8to1c4_263_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen Cert.PointCloud

/-- A scalar float word read at the ideal instance. -/
theorem scalar_ofBits (b : BitVec 32) : Scalar.ofBits (F := Ideal) .f32 b = Ideal.ofBits .f32 b := rfl

/-- An entry of the one-hot matrix: the row number compared with the point's segment word, as a float. -/
theorem oneHot_apply (x1 : IVec S1x4096 32) (b : Fin 64) (r : Fin 4096) :
    (sitofp .f32 (extui 32 (cmpi .eq (iota .tc S64x4096 32 [0] iota_S64x4096_d0_w32)
        (broadcastTo S64x4096 (shapeCast S1x4096 x1 shapeCasts_S1x4096_S1x4096) broadcasts_S1x4096_S64x4096)) natLt_1_32)
      : FVec Ideal S64x4096 .f32) (ix2 b r)
      = if x1 (ix2 (0 : Fin 1) r) = BitVec.ofNat 32 b.val then (1 : EReal) else 0 := by
  rw [sitofp_apply, extui_apply]
  show FloatOps.sitofp (F := Ideal) .f32 ((IntOp.cmpi .eq (iota .tc S64x4096 32 [0] iota_S64x4096_d0_w32 (ix2 b r))
    (broadcastTo S64x4096 (shapeCast S1x4096 x1 shapeCasts_S1x4096_S1x4096) broadcasts_S1x4096_S64x4096 (ix2 b r))).setWidth 32) = _
  rw [iota_single_apply, shapeCast_self, broadcastTo_1b_ab_apply]
  show ((((IntOp.cmpi .eq (BitVec.ofNat 32 b.val) (x1 (ix2 (0 : Fin 1) r))).setWidth 32).toInt : ℝ) : EReal) = _
  have e1 : ((BitVec.ofBool true).setWidth 32 : BitVec 32).toInt = 1 := by decide
  have e0 : ((BitVec.ofBool false).setWidth 32 : BitVec 32).toInt = 0 := by decide
  unfold IntOp.cmpi
  by_cases h : x1 (ix2 (0 : Fin 1) r) = BitVec.ofNat 32 b.val
  · rw [if_pos h, h]
    have : (BitVec.ofNat 32 b.val == BitVec.ofNat 32 b.val) = true := by simp
    simp only [this, e1, Int.cast_one, EReal.coe_one]
  · rw [if_neg h]
    have : (BitVec.ofNat 32 b.val == x1 (ix2 (0 : Fin 1) r)) = false :=
      beq_eq_false_iff_ne.mpr fun e => h e.symm
    simp only [this, e0, Int.cast_zero, EReal.coe_zero]

/-- A dense layer of the body at an entry. -/
theorem denseLayer_apply {M K N : ℕ} (x : FVec Ideal ⟨2, ![M, K]⟩ .f32) (w : FVec Ideal ⟨2, ![K, N]⟩ .f32)
    (bias : FVec Ideal ⟨2, ![1, N]⟩ .f32) (D : DotDims ⟨2, ![M, K]⟩ ⟨2, ![K, N]⟩ ⟨2, ![M, N]⟩) (hD : D = DotDims.plain M K N)
    (hc : (⟨2, ![1, N]⟩ : Shape).ShapeCasts ⟨2, ![1, N]⟩) (hb : (⟨2, ![1, N]⟩ : Shape).Broadcasts ⟨2, ![M, N]⟩)
    (p : Fin M) (q : Fin N) :
    maximumf (addf (matmul D none x w (constant ⟨2, ![M, N]⟩ .f32 0x00000000#32))
        (broadcastTo ⟨2, ![M, N]⟩ (shapeCast ⟨2, ![1, N]⟩ bias hc) hb))
      (broadcast ⟨2, ![M, N]⟩ (Scalar.ofBits (F := Ideal) .f32 0x00000000#32)) (ix2 p q)
      = dense (fun k j => w (ix2 k j)) (fun j => bias (ix2 (0 : Fin 1) j)) (fun k => x (ix2 p k)) q := by
  rw [maximumf_apply, addf_apply, broadcast_apply, shapeCast_self, broadcastTo_1b_ab_apply, scalar_ofBits,
    Ideal.ofBits_zero_f32]
  show max (FloatOps.matmul D none x w (constant ⟨2, ![M, N]⟩ .f32 0x00000000#32) (ix2 p q) + _) 0 = _
  rw [PlainDot.matmul_zero_apply D hD]
  rfl

/-- The body's first layer at an entry: the point's coordinates times one, through a dense layer. -/
theorem firstLayer_apply (x0 : FVec Ideal S4096x3 .f32) (x2 : FVec Ideal S3x128 .f32) (x3 : FVec Ideal S1x128 .f32)
    (r : Fin 4096) (k : Fin 128) :
    maximumf (addf (matmul dot_S4096x3_S3x128_S4096x128_1_0_0_1_n_n none
        (mulf (shapeCast S4096x3 x0 shapeCasts_S4096x3_S4096x3) (broadcast S4096x3 (Scalar.ofBits (F := Ideal) .f32 0x3F800000#32)))
        x2 (constant S4096x128 .f32 0x00000000#32))
        (broadcastTo S4096x128 (shapeCast S1x128 x3 shapeCasts_S1x128_S1x128) broadcasts_S1x128_S4096x128))
        (broadcast S4096x128 (Scalar.ofBits (F := Ideal) .f32 0x00000000#32)) (ix2 r k)
      = dense (fun k j => x2 (ix2 k j)) (fun j => x3 (ix2 (0 : Fin 1) j)) (fun j => x0 (ix2 r j)) k := by
  rw [denseLayer_apply _ x2 x3 dot_S4096x3_S3x128_S4096x128_1_0_0_1_n_n rfl _ _ r k]
  refine congrArg (fun f => dense _ _ f k) (funext fun j => ?_)
  rw [mulf_apply, shapeCast_self, broadcast_apply, scalar_ofBits]
  show x0 (ix2 r j) * radius = _
  rw [radius_eq_one, mul_one]

/-- The zero block the first point stores is zero at every entry. -/
theorem zeroBlock_apply (i : S64x128.Idx) : (k0_pay3 (F := Ideal)) i = 0 := by
  unfold k0_pay3
  rw [shapeCast_self, broadcast_apply, scalar_ofBits, Ideal.ofBits_zero_f32]

/-- The hidden features of the points of one block, as the body computes them. -/
def blockHidden (x0 : FVec Ideal S4096x3 .f32) (x2 : FVec Ideal S3x128 .f32) (x3 : FVec Ideal S1x128 .f32)
    (x4 : FVec Ideal S128x128 .f32) (x5 : FVec Ideal S1x128 .f32) (r : Fin 4096) (d : Fin 128) : EReal :=
  Cert.PointCloud.hidden (fun k j => x2 (ix2 k j)) (fun j => x3 (ix2 (0 : Fin 1) j)) (fun k j => x4 (ix2 k j))
    (fun j => x5 (ix2 (0 : Fin 1) j)) (fun k => x0 (ix2 r k)) d

/-- One step of the accumulator at an entry. -/
theorem accumulate_apply (x0 : FVec Ideal S4096x3 .f32) (x1 : IVec S1x4096 32) (x2 : FVec Ideal S3x128 .f32)
    (x3 : FVec Ideal S1x128 .f32) (x4 : FVec Ideal S128x128 .f32) (x5 : FVec Ideal S1x128 .f32) (acc : FVec Ideal S64x128 .f32)
    (b : Fin 64) (d : Fin 128) :
    k0_pay1 (F := Ideal) (k0_pay4 x0 x2 x3 x4 x5 x1 acc) (ix2 b d)
      = acc (ix2 b d) + ∑ r : Fin 4096,
          if x1 (ix2 (0 : Fin 1) r) = BitVec.ofNat 32 b.val then blockHidden x0 x2 x3 x4 x5 r d else 0 := by
  unfold k0_pay1 k0_pay4
  dsimp only
  rw [shapeCast_self, addf_apply]
  refine congrArg (acc (ix2 b d) + ·) ?_
  refine (PlainDot.matmul_zero_apply _ rfl none _ _ b d).trans ?_
  refine Finset.sum_congr rfl fun r _ => ?_
  rw [oneHot_apply x1 b r, denseLayer_apply _ x4 x5 dot_S4096x128_S128x128_S4096x128_1_0_0_1_n_n rfl _ _ r d]
  simp only [firstLayer_apply]
  unfold blockHidden Cert.PointCloud.hidden
  split
  · exact one_mul _
  · exact zero_mul _

/-- The decoder's value at an entry. -/
theorem decode_apply (acc : FVec Ideal S64x128 .f32) (x6 : FVec Ideal S128x6144 .f32) (x7 : FVec Ideal S1x6144 .f32)
    (b : Fin 64) (j : Fin 6144) :
    k0_pay2 (F := Ideal) acc x6 x7 (ix2 b j)
      = decoded (fun b d => acc (ix2 b d)) (fun d j => x6 (ix2 d j)) (fun j => x7 (ix2 (0 : Fin 1) j)) b j := by
  unfold k0_pay2
  rw [mulf_apply, addf_apply, broadcast_apply, shapeCast_self, broadcastTo_1b_ab_apply, scalar_ofBits]
  show (FloatOps.matmul dot_S64x128_S128x6144_S64x6144_1_0_0_1_n_n none acc x6 (constant S64x6144 .f32 0x00000000#32) (ix2 b j) + _) * _ = _
  rw [PlainDot.matmul_zero_apply dot_S64x128_S128x6144_S64x6144_1_0_0_1_n_n rfl]
  rfl

end Cert.KernelIdeal.Payload

end
-- ==== Proof.LibPadRead.lean ====
/-
  A padded array read at an index (`stablehlo.pad` with no interior padding).

  `pad t lo hi interior x v` holds, at a result index `j`, the operand `x` where `j` minus the low padding is an
  operand index on every axis, and the padding value `v` elsewhere. With no interior padding the two cases are
  plain intervals: `j` is inside when `lo a ≤ j a < lo a + size a` on every axis `a`, and then reads `x` at
  `j - lo`; it is outside as soon as ONE axis leaves its interval, and then reads the padding value.
  The caller names the operand index by its coordinates and owes one linear equation per axis.
-/
import Idealize.ShloMosaic.PureOps.Ideal

namespace Cert.Lib.PadRead

open Idealize.ShloMosaic

variable {s t u : Shape} {α : Type}

/-- INSIDE: if on every axis the result coordinate is the low padding plus an operand coordinate `k a` (and the
    axis has no interior padding), the padded array reads the operand at `k`. -/
theorem pad_apply_inside (lo hi interior : Fin s.rank → Nat) (x : s.Idx → α) (v : u.Idx → α)
    (h : s.Pads lo hi interior t) (hu : 0 < u.numel) (j : t.Idx) (k : s.Idx)
    (hint : ∀ a, interior a = 0)
    (hk : ∀ a : Fin s.rank, (j (a.cast h.1)).val = lo a + (k a).val) :
    pad t lo hi interior x v h hu j = x k := by
  unfold pad
  have hin : ∀ a : Fin s.rank, lo a ≤ (j (a.cast h.1)).val
      ∧ ((j (a.cast h.1)).val - lo a) % (interior a + 1) = 0
      ∧ ((j (a.cast h.1)).val - lo a) / (interior a + 1) < s.size a := fun a => by
    rw [hint a, hk a, Nat.add_sub_cancel_left, Nat.zero_add, Nat.mod_one, Nat.div_one]
    exact ⟨Nat.le_add_right _ _, rfl, (k a).isLt⟩
  rw [dif_pos hin]
  refine congrArg x (funext fun a => Fin.ext ?_)
  show ((j (a.cast h.1)).val - lo a) / (interior a + 1) = (k a).val
  rw [hint a, hk a, Nat.add_sub_cancel_left, Nat.zero_add, Nat.div_one]

/-- OUTSIDE: if on ONE axis (without interior padding) the result coordinate is below the low padding or at or
    past the low padding plus the operand's extent, the padded array reads the padding value. -/
theorem pad_apply_outside (lo hi interior : Fin s.rank → Nat) (x : s.Idx → α) (v : u.Idx → α)
    (h : s.Pads lo hi interior t) (hu : 0 < u.numel) (j : t.Idx) (a : Fin s.rank)
    (hint : interior a = 0)
    (ha : (j (a.cast h.1)).val < lo a ∨ lo a + s.size a ≤ (j (a.cast h.1)).val) :
    pad t lo hi interior x v h hu j = v (Shape.Idx.first hu) := by
  unfold pad
  rw [dif_neg]
  intro hin
  obtain ⟨h1, -, h3⟩ := hin a
  rw [hint, Nat.zero_add, Nat.div_one] at h3
  omega

end Cert.Lib.PadRead
-- ==== Proof.KernelBlocks.lean ====
/-
  The arrays the region finds, and the blocks the body is given, read at an entry.

  Before the region the host pads the points with 2400 rows of `0.0` and the segment numbers with 2400 entries `64`,
  and turns the three bias vectors into rows. Point `t` of the grid is given rows `4096 t … 4096 t + 4095` of the
  padded points and the same stretch of the padded segment numbers; every other window is its whole array at
  every point.
-/
import proofs.«158518_g44641890074844_cont_8to1c4_263_1_alg».proof.Proof.Gen.KernelIdeal.Frame
import proofs.«158518_g44641890074844_cont_8to1c4_263_1_alg».proof.Proof.LibPadRead
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-! ## The argument arrays, with their plain types -/

/-- The points. -/
abbrev posArr (c : Dev nD) : S100000x3.Idx → Ideal .f32 := m ((c : Thread nD τ).loc main_arg0)
/-- The segment numbers. -/
abbrev segArr (c : Dev nD) : S100000.Idx → BitVec 32 := m ((c : Thread nD τ).loc main_arg1)
/-- The first layer's weights and bias. -/
abbrev w1Arr (c : Dev nD) : S3x128.Idx → Ideal .f32 := m ((c : Thread nD τ).loc main_arg2)
abbrev b1Arr (c : Dev nD) : S128.Idx → Ideal .f32 := m ((c : Thread nD τ).loc main_arg3)
/-- The second layer's weights and bias. -/
abbrev w2Arr (c : Dev nD) : S128x128.Idx → Ideal .f32 := m ((c : Thread nD τ).loc main_arg4)
abbrev b2Arr (c : Dev nD) : S128.Idx → Ideal .f32 := m ((c : Thread nD τ).loc main_arg5)
/-- The decoder's weights and bias. -/
abbrev dwArr (c : Dev nD) : S128x6144.Idx → Ideal .f32 := m ((c : Thread nD τ).loc main_arg6)
abbrev dbArr (c : Dev nD) : S6144.Idx → Ideal .f32 := m ((c : Thread nD τ).loc main_arg7)

/-! ## The arrays as the region finds them -/

/-- The padded points. -/
theorem V_points (c : Dev nD) : (V m c main_v0 : S102400x3.Idx → Ideal .f32)
    = pad S102400x3 ![0, 0] ![2400, 0] ![0, 0] (posArr m c) (sitofp (F := Ideal) .f32 (constantI S_ 32 0#32))
        pads_S100000x3_S102400x3_024000_000 h_S_ := by
  dsimp only [V, V0]
  simp only [hostOps0, hostOps0_1, hostOps0_2, hostOps0_3, hostOps0_4, List.flatten_cons, List.flatten_nil, List.append_nil, List.cons_append, List.nil_append]
  after_results
  rfl

/-- The padded segment numbers, as a row. -/
theorem V_segments (c : Dev nD) : (V m c main_v2 : S1x102400.Idx → BitVec 32)
    = shapeCast S1x102400 (pad S102400 ![0] ![2400] ![0] (segArr m c) (id (constantI S_ 32 64#32))
        pads_S100000_S102400_024000 h_S_) shapeCasts_S102400_S1x102400 := by
  dsimp only [V, V0]
  simp only [hostOps0, hostOps0_1, hostOps0_2, hostOps0_3, hostOps0_4, List.flatten_cons, List.flatten_nil, List.append_nil, List.cons_append, List.nil_append]
  after_results
  rfl

/-- The first bias as a row. -/
theorem V_bias1 (c : Dev nD) : (V m c main_v3 : S1x128.Idx → Ideal .f32)
    = shapeCast S1x128 (b1Arr m c) shapeCasts_S128_S1x128 := by
  dsimp only [V, V0]
  simp only [hostOps0, hostOps0_1, hostOps0_2, hostOps0_3, hostOps0_4, List.flatten_cons, List.flatten_nil, List.append_nil, List.cons_append, List.nil_append]
  after_results
  rfl

/-- The second bias as a row. -/
theorem V_bias2 (c : Dev nD) : (V m c main_v4 : S1x128.Idx → Ideal .f32)
    = shapeCast S1x128 (b2Arr m c) shapeCasts_S128_S1x128 := by
  dsimp only [V, V0]
  simp only [hostOps0, hostOps0_1, hostOps0_2, hostOps0_3, hostOps0_4, List.flatten_cons, List.flatten_nil, List.append_nil, List.cons_append, List.nil_append]
  after_results
  rfl

/-- The decoder's bias as a row. -/
theorem V_bias3 (c : Dev nD) : (V m c main_v5 : S1x6144.Idx → Ideal .f32)
    = shapeCast S1x6144 (dbArr m c) shapeCasts_S6144_S1x6144 := by
  dsimp only [V, V0]
  simp only [hostOps0, hostOps0_1, hostOps0_2, hostOps0_3, hostOps0_4, List.flatten_cons, List.flatten_nil, List.append_nil, List.cons_append, List.nil_append]
  after_results
  rfl

/-- A padded point: the point itself below 100000, zeros above. -/
theorem points_apply (c : Dev nD) (R : Fin 102400) (k : Fin 3) :
    (V m c main_v0 : S102400x3.Idx → Ideal .f32) (ix2 R k)
      = if h : R.val < 100000 then posArr m c (ix2 ⟨R.val, h⟩ k) else (0 : EReal) := by
  rw [V_points]
  split
  · next h =>
    exact Cert.Lib.PadRead.pad_apply_inside _ _ _ _ _ _ _ (ix2 R k) (ix2 ⟨R.val, h⟩ k) (fun a => by
      match a with
      | ⟨0, _⟩ => rfl
      | ⟨1, _⟩ => rfl) (fun a => by
      match a with
      | ⟨0, _⟩ => show R.val = 0 + R.val; omega
      | ⟨1, _⟩ => show k.val = 0 + k.val; omega)
  · next h =>
    refine (Cert.Lib.PadRead.pad_apply_outside _ _ _ _ _ _ _ (ix2 R k) (0 : Fin 2) rfl (Or.inr ?_)).trans ?_
    · show 0 + 100000 ≤ R.val
      omega
    · show FloatOps.sitofp (F := Ideal) .f32 (0#32) = 0
      show (((0#32 : BitVec 32).toInt : ℝ) : EReal) = 0
      simp

/-- A padded segment number: the point's below 100000, the word 64 above. -/
theorem segments_apply (c : Dev nD) (R : Fin 102400) :
    (V m c main_v2 : S1x102400.Idx → BitVec 32) (ix2 (0 : Fin 1) R)
      = if h : R.val < 100000 then segArr m c (ix1 ⟨R.val, h⟩) else 64#32 := by
  rw [V_segments, shapeCast_a_1a_apply]
  split
  · next h =>
    exact Cert.Lib.PadRead.pad_apply_inside _ _ _ _ _ _ _ (ix1 R) (ix1 ⟨R.val, h⟩) (fun a => by
      match a with
      | ⟨0, _⟩ => rfl) (fun a => by
      match a with
      | ⟨0, _⟩ => show R.val = 0 + R.val; omega)
  · next h =>
    refine (Cert.Lib.PadRead.pad_apply_outside _ _ _ _ _ _ _ (ix1 R) (0 : Fin 1) rfl (Or.inr ?_)).trans rfl
    show 0 + 100000 ≤ R.val
    omega

/-! ## The blocks -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem row_lt (t : Fin cfg0.N) (r : Fin 4096) : 4096 * t.val + r.val < 102400 := by
  have hN : cfg0.N = 25 := N_0
  have := t.isLt
  have := r.isLt
  omega

/-- Point `t`'s block of points: rows `4096 t + r` of the padded points. -/
theorem iblk0_apply (c : Dev nD) (t : Fin cfg0.N) (r : Fin 4096) (k : Fin 3) :
    (iblk m c 0 t : FVec Ideal S4096x3 .f32) (ix2 r k) = V m c main_v0 (ix2 ⟨4096 * t.val + r.val, row_lt t r⟩ k) := by
  unfold iblk
  rw [View.read_apply]
  show V m c main_v0 _ = V m c main_v0 _
  congr 1
  funext a
  apply Fin.ext
  match a with
  | ⟨0, _⟩ => show win0_0.index t 0 * 4096 + 1 * r.val = 4096 * t.val + r.val; rw [(idx0 t).1]; omega
  | ⟨1, _⟩ => show win0_0.index t 1 * 3 + 1 * k.val = k.val; rw [(idx0 t).2]; omega

/-- Point `t`'s block of segment numbers: entries `4096 t + r` of the padded row. -/
theorem iblk1_apply (c : Dev nD) (t : Fin cfg0.N) (r : Fin 4096) :
    (iblk m c 1 t : IVec S1x4096 32) (ix2 (0 : Fin 1) r) = V m c main_v2 (ix2 (0 : Fin 1) ⟨4096 * t.val + r.val, row_lt t r⟩) := by
  unfold iblk
  rw [View.read_apply]
  show V m c main_v2 _ = V m c main_v2 _
  congr 1
  funext a
  apply Fin.ext
  match a with
  | ⟨0, _⟩ => show win0_1.index t 0 * 1 + 1 * 0 = 0; rw [(idx1 t).1]
  | ⟨1, _⟩ => show win0_1.index t 1 * 4096 + 1 * r.val = 4096 * t.val + r.val; rw [(idx1 t).2]; omega

/-- Window 2's block is its whole array at every point. -/
theorem iblk2_eq (c : Dev nD) (t : Fin cfg0.N) : (iblk m c 2 t : FVec Ideal S3x128 .f32) = V m c main_arg2 := by
  funext j
  unfold iblk
  rw [View.read_apply]
  show V m c main_arg2 _ = V m c main_arg2 j
  congr 1
  funext a
  apply Fin.ext
  match a with
  | ⟨0, _⟩ => show win0_2.index t 0 * 3 + 1 * (j 0).val = (j 0).val; rw [(idx2 t).1]; omega
  | ⟨1, _⟩ => show win0_2.index t 1 * 128 + 1 * (j 1).val = (j 1).val; rw [(idx2 t).2]; omega

/-- Window 3's block is its whole array at every point. -/
theorem iblk3_eq (c : Dev nD) (t : Fin cfg0.N) : (iblk m c 3 t : FVec Ideal S1x128 .f32) = V m c main_v3 := by
  funext j
  unfold iblk
  rw [View.read_apply]
  show V m c main_v3 _ = V m c main_v3 j
  congr 1
  funext a
  apply Fin.ext
  match a with
  | ⟨0, _⟩ => show win0_3.index t 0 * 1 + 1 * (j 0).val = (j 0).val; rw [(idx3 t).1]; omega
  | ⟨1, _⟩ => show win0_3.index t 1 * 128 + 1 * (j 1).val = (j 1).val; rw [(idx3 t).2]; omega

/-- Window 4's block is its whole array at every point. -/
theorem iblk4_eq (c : Dev nD) (t : Fin cfg0.N) : (iblk m c 4 t : FVec Ideal S128x128 .f32) = V m c main_arg4 := by
  funext j
  unfold iblk
  rw [View.read_apply]
  show V m c main_arg4 _ = V m c main_arg4 j
  congr 1
  funext a
  apply Fin.ext
  match a with
  | ⟨0, _⟩ => show win0_4.index t 0 * 128 + 1 * (j 0).val = (j 0).val; rw [(idx4 t).1]; omega
  | ⟨1, _⟩ => show win0_4.index t 1 * 128 + 1 * (j 1).val = (j 1).val; rw [(idx4 t).2]; omega

/-- Window 5's block is its whole array at every point. -/
theorem iblk5_eq (c : Dev nD) (t : Fin cfg0.N) : (iblk m c 5 t : FVec Ideal S1x128 .f32) = V m c main_v4 := by
  funext j
  unfold iblk
  rw [View.read_apply]
  show V m c main_v4 _ = V m c main_v4 j
  congr 1
  funext a
  apply Fin.ext
  match a with
  | ⟨0, _⟩ => show win0_5.index t 0 * 1 + 1 * (j 0).val = (j 0).val; rw [(idx5 t).1]; omega
  | ⟨1, _⟩ => show win0_5.index t 1 * 128 + 1 * (j 1).val = (j 1).val; rw [(idx5 t).2]; omega

/-- Window 6's block is its whole array at every point. -/
theorem iblk6_eq (c : Dev nD) (t : Fin cfg0.N) : (iblk m c 6 t : FVec Ideal S128x6144 .f32) = V m c main_arg6 := by
  funext j
  unfold iblk
  rw [View.read_apply]
  show V m c main_arg6 _ = V m c main_arg6 j
  congr 1
  funext a
  apply Fin.ext
  match a with
  | ⟨0, _⟩ => show win0_6.index t 0 * 128 + 1 * (j 0).val = (j 0).val; rw [(idx6 t).1]; omega
  | ⟨1, _⟩ => show win0_6.index t 1 * 6144 + 1 * (j 1).val = (j 1).val; rw [(idx6 t).2]; omega

/-- Window 7's block is its whole array at every point. -/
theorem iblk7_eq (c : Dev nD) (t : Fin cfg0.N) : (iblk m c 7 t : FVec Ideal S1x6144 .f32) = V m c main_v5 := by
  funext j
  unfold iblk
  rw [View.read_apply]
  show V m c main_v5 _ = V m c main_v5 j
  congr 1
  funext a
  apply Fin.ext
  match a with
  | ⟨0, _⟩ => show win0_7.index t 0 * 1 + 1 * (j 0).val = (j 0).val; rw [(idx7 t).1]; omega
  | ⟨1, _⟩ => show win0_7.index t 1 * 6144 + 1 * (j 1).val = (j 1).val; rw [(idx7 t).2]; omega

end Cert.KernelIdeal.Blocks

end
-- ==== Proof.RangeSums.lean ====
/-
  Two facts about finite sums, over any additive commutative monoid (so also on the extended reals).

  * A sum over the first `a + b` naturals whose last `b` terms vanish is the sum over the first `a`.
  * The sum over `Fin n` of a function of the value is the sum over `Finset.range n`.
-/
import Mathlib.Algebra.BigOperators.Fin
import Mathlib.Algebra.BigOperators.Intervals

namespace Cert.PointCloud.Sums

variable {M : Type*} [AddCommMonoid M]

/-- Terms that vanish from `a` on may be left out. -/
theorem sum_range_of_tail_zero (f : ℕ → M) (a b : ℕ) (h : ∀ j, a ≤ j → j < a + b → f j = 0) :
    ∑ j ∈ Finset.range (a + b), f j = ∑ j ∈ Finset.range a, f j := by
  rw [Finset.sum_range_add]
  rw [Finset.sum_eq_zero (fun j hj => h (a + j) (Nat.le_add_right _ _) (by
    have := Finset.mem_range.mp hj; omega)), add_zero]

/-- One more block of `n` terms after `k` terms. -/
theorem sum_range_block (f : ℕ → M) (k n : ℕ) :
    ∑ j ∈ Finset.range (k + n), f j = ∑ j ∈ Finset.range k, f j + ∑ r : Fin n, f (k + r.val) := by
  rw [Finset.sum_range_add]
  exact congrArg (_ + ·) (Finset.sum_range _)

end Cert.PointCloud.Sums
-- ==== Proof.KernelAccum.lean ====
/-
  The accumulator point by point, and what it holds at the end.

  After point `n` the accumulator holds, at `(b, d)`, the sum over the first `4096 (n + 1)` rows of the padded
  input of the row's hidden feature `d` when its segment word is the word of `b`, and `0` otherwise: the first
  point starts from zero and every point adds its block's 4096 rows. After the last point all 102400 rows are in;
  the 2400 padding rows carry the word 64, which is no segment, so the sum is the one over the 100000 points:
  the encoder's segment sum.
-/
import proofs.«158518_g44641890074844_cont_8to1c4_263_1_alg».proof.Proof.KernelPieces
import proofs.«158518_g44641890074844_cont_8to1c4_263_1_alg».proof.Proof.KernelPayload
import proofs.«158518_g44641890074844_cont_8to1c4_263_1_alg».proof.Proof.KernelBlocks
import proofs.«158518_g44641890074844_cont_8to1c4_263_1_alg».proof.Proof.RangeSums

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks

variable (m : (ℓ : Loc nD τ sig) → Buf (Elt Ideal) ℓ)

/-- The accumulator after point `n`: zeroed and stepped at the first point, stepped at every later one. -/
def accAfter (c : Dev nD) : (n : ℕ) → n < cfg0.N → Vec Ideal S64x128 .f32
  | 0, h => Pieces.accumulate (F := Ideal) (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay3 (F := Ideal))
  | n + 1, h => Pieces.accumulate (F := Ideal) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (accAfter c n (Nat.lt_of_succ_lt h))

/-- What the generated recursion over the points leaves in the carried scratch is that accumulator. -/
theorem scratch_eq (c : Dev nD) : ∀ (n : ℕ) (h : n < cfg0.N), (outsAt0 m c n h).2.2 = accAfter m c n h
  | 0, h =>
    (congrArg (fun p => p.2.2) (outsAt0_A m c ⟨0, h⟩ rfl (by show ¬0 % 25 = 24; decide))).trans
      (Pieces.scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _)
        ((hcond0_0 ⟨0, h⟩).mpr rfl) (fun hh => absurd ((hcond0_1 ⟨0, h⟩).mp hh) (by show ¬0 % 25 = 24; decide))
        (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩))
  | n + 1, h => by
    have hN : cfg0.N = 25 := N_0
    have h0 : ¬(⟨n + 1, h⟩ : Fin cfg0.N).val % 25 = 0 := by dsimp only; omega
    by_cases h1 : (⟨n + 1, h⟩ : Fin cfg0.N).val % 25 = 24
    · refine ((congrArg (fun p => p.2.2) (outsAt0_C m c ⟨n + 1, h⟩ h0 h1)).trans
        (Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _)
          (fun hh => h0 ((hcond0_0 ⟨n + 1, h⟩).mp hh)) ((hcond0_1 ⟨n + 1, h⟩).mpr h1)
          (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c ((⟨n + 1, h⟩ : Fin cfg0.N).val - 1) (Nat.lt_of_le_of_lt (Nat.sub_le _ _) (⟨n + 1, h⟩ : Fin cfg0.N).isLt)).2.2)).trans ?_
      show Pieces.accumulate _ _ _ _ _ _ (outsAt0 m c n _).2.2 = Pieces.accumulate _ _ _ _ _ _ (accAfter m c n _)
      rw [scratch_eq c n]
    · refine ((congrArg (fun p => p.2.2) (outsAt0_B m c ⟨n + 1, h⟩ h0 h1)).trans
        (Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _)
          (fun hh => h0 ((hcond0_0 ⟨n + 1, h⟩).mp hh)) (fun hh => h1 ((hcond0_1 ⟨n + 1, h⟩).mp hh))
          (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c ((⟨n + 1, h⟩ : Fin cfg0.N).val - 1) (Nat.lt_of_le_of_lt (Nat.sub_le _ _) (⟨n + 1, h⟩ : Fin cfg0.N).isLt)).2.2)).trans ?_
      show Pieces.accumulate _ _ _ _ _ _ (outsAt0 m c n _).2.2 = Pieces.accumulate _ _ _ _ _ _ (accAfter m c n _)
      rw [scratch_eq c n]

theorem last_lt : 24 < cfg0.N := by rw [show cfg0.N = 25 from N_0]; decide

/-- The last point of the grid. -/
abbrev tLast : Fin cfg0.N := ⟨24, last_lt⟩

theorem tLast_h0 : ¬tLast.val % 25 = 0 := by show ¬24 % 25 = 0; decide
theorem tLast_h1 : tLast.val % 25 = 24 := rfl

/-! ## The accumulator as a sum over rows -/

/-- What row `R` of the padded input adds to feature `d` of segment `b`. -/
def rowTerm (c : Dev nD) (b : Fin 64) (d : Fin 128) (R : ℕ) : EReal :=
  if hR : R < 102400 then
    if (V m c main_v2 : S1x102400.Idx → BitVec 32) (ix2 (0 : Fin 1) ⟨R, hR⟩) = BitVec.ofNat 32 b.val then
      Cert.PointCloud.hidden (fun k j => (V m c main_arg2 : S3x128.Idx → Ideal .f32) (ix2 k j))
        (fun j => (V m c main_v3 : S1x128.Idx → Ideal .f32) (ix2 (0 : Fin 1) j))
        (fun k j => (V m c main_arg4 : S128x128.Idx → Ideal .f32) (ix2 k j))
        (fun j => (V m c main_v4 : S1x128.Idx → Ideal .f32) (ix2 (0 : Fin 1) j))
        (fun k => (V m c main_v0 : S102400x3.Idx → Ideal .f32) (ix2 ⟨R, hR⟩ k)) d
    else 0
  else 0

/-- A row of point `t`'s block adds the term of row `4096 t + r`. -/
theorem blockTerm_eq (c : Dev nD) (t : Fin cfg0.N) (r : Fin 4096) (b : Fin 64) (d : Fin 128) :
    (if (iblk m c 1 t : IVec S1x4096 32) (ix2 (0 : Fin 1) r) = BitVec.ofNat 32 b.val then
        Payload.blockHidden (iblk m c 0 t) (iblk m c 2 t) (iblk m c 3 t) (iblk m c 4 t) (iblk m c 5 t) r d else 0)
      = rowTerm m c b d (4096 * t.val + r.val) := by
  unfold rowTerm
  rw [dif_pos (row_lt t r), iblk1_apply m c t r]
  unfold Payload.blockHidden
  rw [iblk2_eq m c t, iblk3_eq m c t, iblk4_eq m c t, iblk5_eq m c t]
  simp only [iblk0_apply m c t r]

/-- After point `n` the accumulator is the sum of the terms of the first `4096 (n + 1)` rows. -/
theorem accAfter_apply (c : Dev nD) (b : Fin 64) (d : Fin 128) : ∀ (n : ℕ) (h : n < cfg0.N),
    accAfter m c n h (ix2 b d) = ∑ R ∈ Finset.range (4096 * (n + 1)), rowTerm m c b d R
  | 0, h => by
    refine (Payload.accumulate_apply (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay3 (F := Ideal)) b d).trans ?_
    rw [Payload.zeroBlock_apply, zero_add, show 4096 * (0 + 1) = 4096 from rfl, Finset.sum_range]
    refine Finset.sum_congr rfl fun r _ => ?_
    refine (blockTerm_eq m c ⟨0, h⟩ r b d).trans ?_
    show rowTerm m c b d (4096 * 0 + r.val) = rowTerm m c b d r.val
    rw [Nat.mul_zero, Nat.zero_add]
  | n + 1, h => by
    refine (Payload.accumulate_apply (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (accAfter m c n (Nat.lt_of_succ_lt h)) b d).trans ?_
    rw [accAfter_apply c b d n, show 4096 * (n + 1 + 1) = 4096 * (n + 1) + 4096 from by ring,
      Cert.PointCloud.Sums.sum_range_block]
    exact congrArg (_ + ·) (Finset.sum_congr rfl fun r _ => blockTerm_eq m c ⟨n + 1, h⟩ r b d)

/-- The word 64 is the word of no segment. -/
theorem pad_word_ne (b : Fin 64) : ¬(64#32 : BitVec 32) = BitVec.ofNat 32 b.val := by
  intro e
  have h := congrArg BitVec.toNat e
  simp only [BitVec.toNat_ofNat] at h
  have := b.isLt
  omega

/-- A padding row adds nothing. -/
theorem rowTerm_pad (c : Dev nD) (b : Fin 64) (d : Fin 128) (R : ℕ) (h1 : 100000 ≤ R) (h2 : R < 100000 + 2400) :
    rowTerm m c b d R = 0 := by
  unfold rowTerm
  rw [dif_pos (by omega : R < 102400), segments_apply m c ⟨R, by omega⟩, dif_neg (by dsimp only; omega),
    if_neg (pad_word_ne b)]

/-- A real point adds its hidden feature when its segment word is the word of `b`. -/
theorem rowTerm_real (c : Dev nD) (b : Fin 64) (d : Fin 128) (R : Fin 100000) :
    rowTerm m c b d R.val
      = if segArr m c (ix1 R) = BitVec.ofNat 32 b.val then
          Cert.PointCloud.hidden (fun k j => w1Arr m c (ix2 k j)) (fun j => b1Arr m c (ix1 j)) (fun k j => w2Arr m c (ix2 k j))
            (fun j => b2Arr m c (ix1 j)) (fun k => posArr m c (ix2 R k)) d
        else 0 := by
  have hR : R.val < 102400 := by have := R.isLt; omega
  unfold rowTerm
  rw [dif_pos hR, segments_apply m c ⟨R.val, hR⟩, dif_pos R.isLt, V_main_arg2 m c, V_main_arg4 m c, V_bias1 m c, V_bias2 m c]
  have hp : (fun k => (V m c main_v0 : S102400x3.Idx → Ideal .f32) (ix2 ⟨R.val, hR⟩ k)) = fun k => posArr m c (ix2 R k) :=
    funext fun k => by rw [points_apply m c ⟨R.val, hR⟩ k, dif_pos R.isLt]
  rw [hp]
  simp only [shapeCast_a_1a_apply]

/-- The final accumulator is the encoder's segment sum. -/
theorem acc_final (c : Dev nD) (b : Fin 64) (d : Fin 128) :
    accAfter m c 24 last_lt (ix2 b d)
      = Cert.PointCloud.encoded (fun r k => posArr m c (ix2 r k)) (fun r => segArr m c (ix1 r)) (fun k j => w1Arr m c (ix2 k j))
          (fun j => b1Arr m c (ix1 j)) (fun k j => w2Arr m c (ix2 k j)) (fun j => b2Arr m c (ix1 j)) b d := by
  rw [accAfter_apply m c b d 24 last_lt, show 4096 * (24 + 1) = 100000 + 2400 from rfl,
    Cert.PointCloud.Sums.sum_range_of_tail_zero _ _ _ (fun j h1 h2 => rowTerm_pad m c b d j h1 h2), Finset.sum_range]
  unfold Cert.PointCloud.encoded
  exact Finset.sum_congr rfl fun R _ => rowTerm_real m c b d R

end Cert.KernelIdeal.Accum

end
-- ==== Proof.KernelLast.lean ====
/-
  What the two outputs hold after the grid's last point.

  At the last point the body, having stepped the accumulator, reads it back and stores the decoder's value of it
  into the first output, and an iota into the second; with the accumulator identified point by point this names
  both outputs' contents.
-/
import proofs.«158518_g44641890074844_cont_8to1c4_263_1_alg».proof.Proof.KernelAccum

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks

variable (m : (ℓ : Loc nD τ sig) → Buf (Elt Ideal) ℓ)

/-- The first output after a point that is the grid's last: the decoder's value of the accumulator there. -/
theorem out8_succ (c : Dev nD) (n : ℕ) (h : n + 1 < cfg0.N) (h1 : (⟨n + 1, h⟩ : Fin cfg0.N).val % 25 = 24) :
    (outsAt0 m c (n + 1) h).1 = k0_pay2 (F := Ideal) (accAfter m c (n + 1) h) (iblk m c 6 ⟨n + 1, h⟩) (iblk m c 7 ⟨n + 1, h⟩) := by
  have hN : cfg0.N = 25 := N_0
  have h0 : ¬(⟨n + 1, h⟩ : Fin cfg0.N).val % 25 = 0 := by dsimp only; omega
  have e1 := congrArg (fun p => p.1) (outsAt0_C m c ⟨n + 1, h⟩ h0 h1)
  dsimp only at e1
  refine (e1.trans (Pieces.out8_C (F := Ideal) ..)).trans ?_
  exact congrArg (fun a => k0_pay2 (F := Ideal) (Pieces.accumulate (F := Ideal) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) a) (iblk m c 6 ⟨n + 1, h⟩) (iblk m c 7 ⟨n + 1, h⟩))
    (scratch_eq m c n (Nat.lt_of_succ_lt h))

/-- The second output after such a point: the row number of each entry. -/
theorem out9_succ (c : Dev nD) (n : ℕ) (h : n + 1 < cfg0.N) (h1 : (⟨n + 1, h⟩ : Fin cfg0.N).val % 25 = 24) :
    (outsAt0 m c (n + 1) h).2.1 = iota .tc S64x2048 32 [0] iota_S64x2048_d0_w32 := by
  have hN : cfg0.N = 25 := N_0
  have h0 : ¬(⟨n + 1, h⟩ : Fin cfg0.N).val % 25 = 0 := by dsimp only; omega
  have e1 := congrArg (fun p => p.2.1) (outsAt0_C m c ⟨n + 1, h⟩ h0 h1)
  dsimp only at e1
  exact e1.trans (Pieces.out9_C (F := Ideal) ..)

/-- The first output after the last point. -/
theorem out8_last (c : Dev nD) :
    (outsAt0 m c 24 last_lt).1 = k0_pay2 (F := Ideal) (accAfter m c 24 last_lt) (iblk m c 6 tLast) (iblk m c 7 tLast) :=
  out8_succ m c 23 last_lt rfl

/-- The second output after the last point. -/
theorem out9_last (c : Dev nD) :
    (outsAt0 m c 24 last_lt).2.1 = iota .tc S64x2048 32 [0] iota_S64x2048_d0_w32 :=
  out9_succ m c 23 last_lt rfl

end Cert.KernelIdeal.Accum

end
-- ==== Proof.KernelResult.lean ====
/-
  What the kernel's program leaves in its two results.

  Both outputs are written back once, after the last point, and their one block is the whole array: the first
  holds the decoder's value of the final accumulator, the second the row number of each entry. The host then
  reads the 64 × 6144 numbers as 131072 points of 3 coordinates and the 64 × 2048 row numbers as one list, both
  in row-major order. With the final accumulator known to be the segment sums this is the specification's
  `pointsArr` and `clusterIdsArr`.
-/
import proofs.«158518_g44641890074844_cont_8to1c4_263_1_alg».proof.Proof.KernelAccum
import proofs.«158518_g44641890074844_cont_8to1c4_263_1_alg».proof.Proof.KernelLast
import proofs.«158518_g44641890074844_cont_8to1c4_263_1_alg».proof.Proof.PointCloudSpec

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks

variable (m : (ℓ : Loc nD τ sig) → Buf (Elt Ideal) ℓ) (ρ : Dev nD → PrngReg)

/-- The decoder's 64 × 6144 numbers, as the last point stores them. -/
def decodedArr (c : Dev nD) : S64x6144.Idx → Ideal .f32 :=
  k0_pay2 (F := Ideal) (Accum.accAfter m c 24 Accum.last_lt) (iblk m c 6 Accum.tLast) (iblk m c 7 Accum.tLast)

/-- The row numbers the last point stores. -/
def rowIds : S64x2048.Idx → BitVec 32 := iota .tc S64x2048 32 [0] iota_S64x2048_d0_w32

theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)

/-- The one write-back of the first output writes the decoder's numbers. -/
theorem flushed8_eq (c : Dev nD) (t : Fin cfg0.N) (hf : (cfg0.win 8).flush t = true) :
    (dats m 0 c).flushed 8 t = ((cfg0.win 8).blk t).view.read (Elt Ideal) (decodedArr m c) := by
  have hN : cfg0.N = 25 := N_0
  have h24 : t.val = 24 := by have := (flush0_8 t).mp hf; have := t.isLt; omega
  obtain rfl : t = Accum.tLast := Fin.ext h24
  show (cfg0.win 8).cut (grid0.coords Accum.tLast) ((dats m 0 c).after 8 Accum.tLast) = _
  rw [show (dats m 0 c).after 8 Accum.tLast = decodedArr m c from (after0_8 m c Accum.tLast).trans (Accum.out8_last m c)]
  have hz' : (fun a => win0_8.index Accum.tLast a * main_v6_0.ty.shape.size a) = fun _ => 0 := funext fun a => by
    match a with
    | ⟨0, _⟩ => show win0_8.index Accum.tLast 0 * _ = 0; rw [(idx8 Accum.tLast).1, Nat.zero_mul]
    | ⟨1, _⟩ => show win0_8.index Accum.tLast 1 * _ = 0; rw [(idx8 Accum.tLast).2, Nat.zero_mul]
  exact (Memref.read_access_unit_zero (Elt Ideal) main_v6_0 hz' (fun a => by rw [congrFun hz' a]; simp) (decodedArr m c)).symm

/-- The one write-back of the second output writes the row numbers. -/
theorem flushed9_eq (c : Dev nD) (t : Fin cfg0.N) (hf : (cfg0.win 9).flush t = true) :
    (dats m 0 c).flushed 9 t = ((cfg0.win 9).blk t).view.read (Elt Ideal) (rowIds) := by
  have hN : cfg0.N = 25 := N_0
  have h24 : t.val = 24 := by have := (flush0_9 t).mp hf; have := t.isLt; omega
  obtain rfl : t = Accum.tLast := Fin.ext h24
  show (cfg0.win 9).cut (grid0.coords Accum.tLast) ((dats m 0 c).after 9 Accum.tLast) = _
  rw [show (dats m 0 c).after 9 Accum.tLast = rowIds from (after0_9 m c Accum.tLast).trans (Accum.out9_last m c)]
  have hz' : (fun a => win0_9.index Accum.tLast a * main_v6_1.ty.shape.size a) = fun _ => 0 := funext fun a => by
    match a with
    | ⟨0, _⟩ => show win0_9.index Accum.tLast 0 * _ = 0; rw [(idx9 Accum.tLast).1, Nat.zero_mul]
    | ⟨1, _⟩ => show win0_9.index Accum.tLast 1 * _ = 0; rw [(idx9 Accum.tLast).2, Nat.zero_mul]
  exact (Memref.read_access_unit_zero (Elt Ideal) main_v6_1 hz' (fun a => by rw [congrFun hz' a]; simp) (rowIds)).symm

/-- The first output array after the region. -/
theorem final8 (c : Dev nD) : (dats m 0 c).arrAt 8 cfg0.N = decodedArr m c :=
  (dats m 0 c).arrAt_eq_of_cover 8 _ (flushed8_eq m c) fun i =>
    ⟨Accum.tLast, (flush0_8 Accum.tLast).mpr rfl, by
      show i ∈ ((View.whole main_v6_0).slice (win0_8.rect Accum.tLast)).set
      rw [View.set_slice_whole, Rect.mem_set_unit]
      intro a
      have h0 : (i 0 : Nat) < 64 := (i 0).isLt
      have h1 : (i 1 : Nat) < 6144 := (i 1).isLt
      match a with
      | ⟨0, _⟩ =>
        show win0_8.index Accum.tLast 0 * win0_8.size 0 ≤ (i 0 : Nat)
          ∧ (i 0 : Nat) < win0_8.index Accum.tLast 0 * win0_8.size 0 + win0_8.xsize (grid0.coords Accum.tLast) 0
        rw [show win0_8.index Accum.tLast 0 * win0_8.size 0 = 0 from by rw [(idx8 Accum.tLast).1, Nat.zero_mul],
          show win0_8.xsize (grid0.coords Accum.tLast) 0 = 64 from rfl]
        omega
      | ⟨1, _⟩ =>
        show win0_8.index Accum.tLast 1 * win0_8.size 1 ≤ (i 1 : Nat)
          ∧ (i 1 : Nat) < win0_8.index Accum.tLast 1 * win0_8.size 1 + win0_8.xsize (grid0.coords Accum.tLast) 1
        rw [show win0_8.index Accum.tLast 1 * win0_8.size 1 = 0 from by rw [(idx8 Accum.tLast).2, Nat.zero_mul],
          show win0_8.xsize (grid0.coords Accum.tLast) 1 = 6144 from rfl]
        omega⟩

/-- The second output array after the region. -/
theorem final9 (c : Dev nD) : (dats m 0 c).arrAt 9 cfg0.N = rowIds :=
  (dats m 0 c).arrAt_eq_of_cover 9 _ (flushed9_eq m c) fun i =>
    ⟨Accum.tLast, (flush0_9 Accum.tLast).mpr rfl, by
      show i ∈ ((View.whole main_v6_1).slice (win0_9.rect Accum.tLast)).set
      rw [View.set_slice_whole, Rect.mem_set_unit]
      intro a
      have h0 : (i 0 : Nat) < 64 := (i 0).isLt
      have h1 : (i 1 : Nat) < 2048 := (i 1).isLt
      match a with
      | ⟨0, _⟩ =>
        show win0_9.index Accum.tLast 0 * win0_9.size 0 ≤ (i 0 : Nat)
          ∧ (i 0 : Nat) < win0_9.index Accum.tLast 0 * win0_9.size 0 + win0_9.xsize (grid0.coords Accum.tLast) 0
        rw [show win0_9.index Accum.tLast 0 * win0_9.size 0 = 0 from by rw [(idx9 Accum.tLast).1, Nat.zero_mul],
          show win0_9.xsize (grid0.coords Accum.tLast) 0 = 64 from rfl]
        omega
      | ⟨1, _⟩ =>
        show win0_9.index Accum.tLast 1 * win0_9.size 1 ≤ (i 1 : Nat)
          ∧ (i 1 : Nat) < win0_9.index Accum.tLast 1 * win0_9.size 1 + win0_9.xsize (grid0.coords Accum.tLast) 1
        rw [show win0_9.index Accum.tLast 1 * win0_9.size 1 = 0 from by rw [(idx9 Accum.tLast).2, Nat.zero_mul],
          show win0_9.xsize (grid0.coords Accum.tLast) 1 = 2048 from rfl]
        omega⟩

/-! ## The host's two reshapes -/

/-- The points result: the decoder's numbers in row-major order, three per point. -/
theorem tail_points (c : Dev nD) :
    (Pipeline.afterTail₀ cfgs (dats m) 0 (V0 m) [hostOps1] c main_v7 : S131072x3.Idx → Ideal .f32)
      = shapeCast S131072x3 (decodedArr m c) shapeCasts_S64x6144_S131072x3 := by
  unfold Pipeline.afterTail₀
  show StableHlo.after hostOps1 _ (Proc.devRef .tc main_v7) = _
  after_results
  show shapeCast S131072x3 (Pipeline.withArrays spec0 c (V0 m c) (fun w => (dats m 0 c).arrAt w cfg0.N)
    (Proc.devRef .tc (Pipeline.arrRef spec0 8))) shapeCasts_S64x6144_S131072x3 = _
  rw [Pipeline.withArrays_arr spec0 launch0.win.arr_inj c _ _ 8, final8]

/-- The segment-number result: the row numbers in row-major order. -/
theorem tail_ids (c : Dev nD) :
    (Pipeline.afterTail₀ cfgs (dats m) 0 (V0 m) [hostOps1] c main_v8 : S131072.Idx → BitVec 32)
      = shapeCast S131072 rowIds shapeCasts_S64x2048_S131072 := by
  unfold Pipeline.afterTail₀
  show StableHlo.after hostOps1 _ (Proc.devRef .tc main_v8) = _
  after_results
  show shapeCast S131072 (Pipeline.withArrays spec0 c (V0 m c) (fun w => (dats m 0 c).arrAt w cfg0.N)
    (Proc.devRef .tc (Pipeline.arrRef spec0 9))) shapeCasts_S64x2048_S131072 = _
  rw [Pipeline.withArrays_arr spec0 launch0.win.arr_inj c _ _ 9, final9]

/-- Entry `(b, j)` of the decoder's numbers is the specification's. -/
theorem decodedArr_apply (c : Dev nD) (b : Fin 64) (j : Fin 6144) :
    decodedArr m c (ix2 b j)
      = Cert.PointCloud.decoded (Cert.PointCloud.encoded (fun r k => posArr m c (ix2 r k)) (fun r => segArr m c (ix1 r))
          (fun k j => w1Arr m c (ix2 k j)) (fun j => b1Arr m c (ix1 j)) (fun k j => w2Arr m c (ix2 k j)) (fun j => b2Arr m c (ix1 j)))
          (fun d j => dwArr m c (ix2 d j)) (fun j => dbArr m c (ix1 j)) b j := by
  unfold decodedArr
  refine (Payload.decode_apply (Accum.accAfter m c 24 Accum.last_lt) (iblk m c 6 Accum.tLast) (iblk m c 7 Accum.tLast) b j).trans ?_
  rw [iblk6_eq m c Accum.tLast, iblk7_eq m c Accum.tLast, V_main_arg6 m c, V_bias3 m c]
  have he : (fun b d => Accum.accAfter m c 24 Accum.last_lt (ix2 b d))
      = Cert.PointCloud.encoded (fun r k => posArr m c (ix2 r k)) (fun r => segArr m c (ix1 r))
          (fun k j => w1Arr m c (ix2 k j)) (fun j => b1Arr m c (ix1 j)) (fun k j => w2Arr m c (ix2 k j)) (fun j => b2Arr m c (ix1 j)) :=
    funext fun b => funext fun d => Accum.acc_final m c b d
  rw [he]
  simp only [shapeCast_a_1a_apply]

/-- The points result is the specification's, entry by entry. -/
theorem points_result (c : Dev nD) :
    shapeCast S131072x3 (decodedArr m c) shapeCasts_S64x6144_S131072x3
      = Cert.PointCloud.pointsArr (posArr m c) (segArr m c) (w1Arr m c) (b1Arr m c) (w2Arr m c) (b2Arr m c) (dwArr m c) (dbArr m c) := by
  funext i
  obtain ⟨k, q, rfl⟩ : ∃ (k : Fin 131072) (q : Fin 3), i = ix2 k q := ⟨i 0, i 1, eq_ix2 i⟩
  have hk := k.isLt
  have hq := q.isLt
  refine (shapeCast_apply (decodedArr m c) shapeCasts_S64x6144_S131072x3 (ix2 k q)
    (ix2 ⟨(3 * k.val + q.val) / 6144, by omega⟩ ⟨(3 * k.val + q.val) % 6144, Nat.mod_lt _ (by decide)⟩) (by
      rewrite [Shape.rowMajor_val_two, Shape.rowMajor_val_two]
      show (3 * k.val + q.val) / 6144 * 6144 + (3 * k.val + q.val) % 6144 = k.val * 3 + q.val
      omega)).trans ?_
  exact decodedArr_apply m c _ _

/-- The segment-number result is the specification's, entry by entry. -/
theorem ids_result : shapeCast S131072 rowIds shapeCasts_S64x2048_S131072 = Cert.PointCloud.clusterIdsArr := by
  funext i
  obtain ⟨k, rfl⟩ : ∃ k : Fin 131072, i = ix1 k := ⟨i 0, eq_ix1 i⟩
  have hk := k.isLt
  refine (shapeCast_apply rowIds shapeCasts_S64x2048_S131072 (ix1 k)
    (ix2 ⟨k.val / 2048, by omega⟩ ⟨k.val % 2048, Nat.mod_lt _ (by decide)⟩) (by
      rewrite [Shape.rowMajor_val_two, Shape.rowMajor_val_one]
      show k.val / 2048 * 2048 + k.val % 2048 = k.val
      omega)).trans ?_
  unfold rowIds
  rw [iota_single_apply]
  rfl

/-! ## The run -/

/-- Every weakly fair execution of the kernel's program terminates with the two results at the specification's
    arrays of the arguments, and the arguments unchanged. -/
theorem run : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v7) = Cert.PointCloud.pointsArr (posArr m c) (segArr m c) (w1Arr m c) (b1Arr m c) (w2Arr m c) (b2Arr m c) (dwArr m c) (dbArr m c)
      ∧ r.2.mem ((c.tc : Thread nD τ).loc main_v8) = Cert.PointCloud.clusterIdsArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    have a0 := ((h c).2 main_arg0 (Pipeline.mem_restRefs_of main_arg0 (by decide) (by decide))).trans (W_main_arg0 m (dats m) c)
    have a1 := ((h c).2 main_arg1 (Pipeline.mem_restRefs_of main_arg1 (by decide) (by decide))).trans (W_main_arg1 m (dats m) c)
    ⟨a0, a1,
      ((h c).2 main_v7 (Pipeline.mem_restRefs_of main_v7 (by decide) (by decide))).trans ((tail_points m c).trans (points_result m c)),
      ((h c).2 main_v8 (Pipeline.mem_restRefs_of main_v8 (by decide) (by decide))).trans ((tail_ids m c).trans ids_result),
      a0, a1,
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.KernelIdeal.Result

end
-- ==== Proof.RefScatter.lean ====
/-
  The segment sum read at an index.

  The host's accumulating scatter with one scalar start index per update row (the row's segment word, read signed),
  a window of one whole row of 128 features, and an operand of 64 rows: update row `r` lands on operand row `b`
  exactly when its start index, read as a signed integer, is `b`; any other start index drops the row. So entry
  `(b, f)` of the result is the operand's entry plus the sum over the update rows `r` whose segment word is the
  word of `b` of the update's entry `(r, f)`.
-/
import proofs.«158518_g44641890074844_cont_8to1c4_263_1_alg».proof.Proof.Gen.ReferenceIdeal.Read

noncomputable section

namespace Cert.ReferenceIdeal.RefValue

open Cert.ReferenceIdeal Cert.ReferenceIdeal.Gen Idealize.ShloMosaic Idealize.ShloMosaic.ValueIdx

/-- An update lands on operand index `i` exactly when start plus window coordinate is `i`'s coordinate on every axis. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hall
      have hi := Option.some.inj h
      have ha := congrArg (fun g => (g a).val) hi
      simp only at ha
      have := hall a
      omega
    · cases h
  · intro h
    have hall : ∀ a, 0 ≤ d.start j idx a + d.window j a ∧ d.start j idx a + d.window j a < s.size a := fun a => by
      have := h a; have := (i a).isLt; omega
    rw [dif_pos hall]
    congr 1; funext a; apply Fin.ext
    show (d.start j idx a + d.window j a).toNat = (i a).val
    have := h a; omega

/-- The scatter's dimension numbers: one start index per update row, naming operand axis 0; the window is axis 1. -/
abbrev segDims : ScatterDims S64x128 S100000x1 S100000x128 := scatter_S64x128_S100000x1_S100000x128_1_0_0_1

theorem segDims_start0 (j : S100000x128.Idx) (idx : IVec S100000x1 32) :
    segDims.start j idx (0 : Fin S64x128.rank) = (idx (ix2 (j 0) (0 : Fin 1))).toInt := by
  unfold ScatterDims.start
  rw [dif_pos (show (0 : Fin S64x128.rank) ∈ segDims.scatterDimsToOperandDims from List.mem_singleton.mpr rfl)]
  have hsi : segDims.siIdx j ⟨List.idxOf (0 : Fin S64x128.rank) segDims.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem segDims_start1 (j : S100000x128.Idx) (idx : IVec S100000x1 32) :
    segDims.start j idx (1 : Fin S64x128.rank) = 0 := by
  unfold ScatterDims.start
  rw [dif_neg (show ¬ (1 : Fin S64x128.rank) ∈ segDims.scatterDimsToOperandDims by decide)]

theorem segDims_window0 (j : S100000x128.Idx) : segDims.window j (0 : Fin S64x128.rank) = 0 := by
  unfold ScatterDims.window
  rw [dif_neg (show ¬ (0 : Fin S64x128.rank) ∈ segDims.sKept by decide)]

theorem segDims_window1 (j : S100000x128.Idx) : segDims.window j (1 : Fin S64x128.rank) = (j 1).val := by
  unfold ScatterDims.window
  rw [dif_pos (show (1 : Fin S64x128.rank) ∈ segDims.sKept by decide)]
  rfl

/-- The 32-bit word of a natural below `2 ^ 31`, read signed, is that natural. -/
theorem toInt_ofNat_small (n : Nat) (hn : n < 2147483648) : (BitVec.ofNat 32 n).toInt = (n : Int) := by
  have hm : (BitVec.ofNat 32 n).toNat = n := by
    rw [BitVec.toNat_ofNat]; exact Nat.mod_eq_of_lt (by omega)
  rw [BitVec.toInt_eq_toNat_of_lt (by rw [hm]; omega), hm]

/-- A 32-bit word read signed is the small natural `n` exactly when it is the word of `n`. -/
theorem toInt_eq_natCast_iff (x : BitVec 32) (n : Nat) (hn : n < 2147483648) :
    x.toInt = (n : Int) ↔ x = BitVec.ofNat 32 n := by
  rw [← toInt_ofNat_small n hn, BitVec.toInt_inj]

/-- Update row `r`, feature `c` lands on `(b, f)` exactly when the row's start index is `b` and `c = f`. -/
theorem segDims_lands_iff (idx : IVec S100000x1 32) (r : Fin 100000) (c : Fin 128) (b : Fin 64) (f : Fin 128) :
    segDims.resultIdx? (ix2 r c) idx = some (ix2 b f) ↔ idx (ix2 r (0 : Fin 1)) = BitVec.ofNat 32 b.val ∧ f = c := by
  rw [resultIdx?_eq_some_iff, Fin.forall_fin_two, segDims_start0, segDims_start1, segDims_window0, segDims_window1,
    ← toInt_eq_natCast_iff _ _ (by have := b.isLt; omega)]
  show (idx (ix2 r (0 : Fin 1))).toInt + ((0 : Nat) : Int) = (b.val : Int) ∧ (0 : Int) + (c.val : Int) = (f.val : Int) ↔ _
  constructor
  · rintro ⟨h0, h1⟩; exact ⟨by omega, Fin.ext (by omega)⟩
  · rintro ⟨h0, h1⟩; subst h1; exact ⟨by omega, by omega⟩

/-- THE SEGMENT SUM AT `(b, f)`: the operand's entry plus the sum, over the update rows whose segment word is the word
    of `b`, of the update's entry `(r, f)`. -/
theorem segSum_apply (x : S64x128.Idx → EReal) (idx : IVec S100000x1 32) (upd : S100000x128.Idx → EReal)
    (b : Fin 64) (f : Fin 128) :
    Host.scatterAdd (F := Ideal) (φ := .f32) segDims x idx upd (ix2 b f)
      = x (ix2 b f) + ∑ r : Fin 100000, if idx (ix2 r (0 : Fin 1)) = BitVec.ofNat 32 b.val then upd (ix2 r f) else 0 := by
  refine Eq.trans (b := Ideal.hostScatterAdd segDims x idx upd (ix2 b f)) rfl ?_
  unfold Ideal.hostScatterAdd
  refine congrArg (x (ix2 b f) + ·) ?_
  rw [Finset.sum_filter, sum_idx2]
  refine Finset.sum_congr rfl fun r _ => ?_
  have hc : ∀ c : Fin 128, (if segDims.resultIdx? (ix2 r c) idx = some (ix2 b f) then upd (ix2 r c) else 0)
      = if idx (ix2 r (0 : Fin 1)) = BitVec.ofNat 32 b.val then (if f = c then upd (ix2 r c) else 0) else 0 := fun c => by
    rw [← ite_and]
    exact if_congr (segDims_lands_iff idx r c b f) rfl rfl
  rw [Finset.sum_congr rfl (fun c _ => hc c)]
  split
  · rw [Finset.sum_ite_eq, if_pos (Finset.mem_univ f)]
  · exact Finset.sum_const_zero

end Cert.ReferenceIdeal.RefValue

end
-- ==== Proof.RefStages.lean ====
/-
  The reference program is the point-cloud function.

  Read one operation at a time, the reference is: every point through two dense layers with a rectified linear unit
  each (the first operation divides the positions by the word of one, which changes nothing); the segment sum of the
  hidden vectors into 64 rows, starting from zero; one more affine map to 6144 numbers per segment; these read
  row-major as 131072 points of 3 coordinates; and the result times the radius word.
-/
import proofs.«158518_g44641890074844_cont_8to1c4_263_1_alg».proof.Proof.Gen.ReferenceIdeal.Read
import proofs.«158518_g44641890074844_cont_8to1c4_263_1_alg».proof.Proof.RefScatter
import proofs.«158518_g44641890074844_cont_8to1c4_263_1_alg».proof.Proof.PointCloudSpec

noncomputable section

namespace Cert.ReferenceIdeal.RefValue

open Cert.ReferenceIdeal Cert.ReferenceIdeal.Gen Idealize.ShloMosaic Idealize.ShloMosaic.ValueIdx Cert.PointCloud

/-- Dividing by the word of one changes nothing. -/
theorem div_oneWord (x : EReal) : Ideal.div x (Ideal.ofBits .f32 0x3F800000#32) = x := by
  rw [show Ideal.ofBits .f32 0x3F800000#32 = (1 : EReal) from radius_eq_one]
  unfold Ideal.div
  rw [if_neg one_ne_zero, inv_one, mul_one]

variable (x0 : (⟨S100000x3, .f32⟩ : BufTy).Contents (Elt Ideal)) (x1 : (⟨S100000, .i32⟩ : BufTy).Contents (Elt Ideal))
  (x2 : (⟨S3x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x6144, .f32⟩ : BufTy).Contents (Elt Ideal)) (x7 : (⟨S6144, .f32⟩ : BufTy).Contents (Elt Ideal))

/-- The first dense layer of point `r`, feature `k`. -/
theorem layer1_eq (r : Fin 100000) (k : Fin 128) :
    Read.val_main_v6 (F := Ideal) x0 x2 x3 (ix2 r k)
      = dense (fun i j => x2 (ix2 i j)) (fun j => x3 (ix1 j)) (fun i => x0 (ix2 r i)) k := by
  rw [Read.val_main_v6_apply, Read.val_main_v5_apply, Read.val_main_v2_apply, Read.val_main_v4_apply,
    Read.val_main_v3_apply, Read.val_main_call0_v0_apply, Read.val_main_call0_cst_apply]
  have hl : ∀ j : Fin 3, Read.lidx_main_v2 (ix2 r k) j = ix2 r j := fun j => funext fun a => by
    match a with
    | ⟨0, _⟩ => rfl
    | ⟨1, _⟩ => rfl
  have hr : ∀ j : Fin 3, Read.ridx_main_v2 (ix2 r k) j = ix2 j k := fun j => funext fun a => by
    match a with
    | ⟨0, _⟩ => rfl
    | ⟨1, _⟩ => rfl
  have hb : Read.idx_main_v3 (Read.idx_main_v4 (ix2 r k)) = ix1 k := funext fun a => by
    match a with
    | ⟨0, _⟩ => rfl
  simp only [hl, hr, hb, Read.val_main_v1_apply, Read.val_main_v0_apply, Read.val_main_cst_apply, Ideal.hostDivf_def,
    Ideal.ofBits_def, div_oneWord, Ideal.maximumf_def, Ideal.addf_def, Ideal.ofBits_zero_f32]
  rfl

/-- Both dense layers of point `r`, feature `d`. -/
theorem hidden_eq (r : Fin 100000) (d : Fin 128) :
    Read.val_main_v11 (F := Ideal) x0 x2 x3 x4 x5 (ix2 r d)
      = hidden (fun i j => x2 (ix2 i j)) (fun j => x3 (ix1 j)) (fun i j => x4 (ix2 i j)) (fun j => x5 (ix1 j))
          (fun i => x0 (ix2 r i)) d := by
  rw [Read.val_main_v11_apply, Read.val_main_v10_apply, Read.val_main_v7_apply, Read.val_main_v9_apply,
    Read.val_main_v8_apply, Read.val_main_call1_v0_apply, Read.val_main_call1_cst_apply]
  have hl : ∀ j : Fin 128, Read.lidx_main_v7 (ix2 r d) j = ix2 r j := fun j => funext fun a => by
    match a with
    | ⟨0, _⟩ => rfl
    | ⟨1, _⟩ => rfl
  have hr : ∀ j : Fin 128, Read.ridx_main_v7 (ix2 r d) j = ix2 j d := fun j => funext fun a => by
    match a with
    | ⟨0, _⟩ => rfl
    | ⟨1, _⟩ => rfl
  have hb : Read.idx_main_v8 (Read.idx_main_v9 (ix2 r d)) = ix1 d := funext fun a => by
    match a with
    | ⟨0, _⟩ => rfl
  simp only [hl, hr, hb, layer1_eq, Ideal.maximumf_def, Ideal.addf_def, Ideal.ofBits_def, Ideal.ofBits_zero_f32]
  rfl

/-- The segment sum: row `b`, feature `d`. -/
theorem encoded_eq (b : Fin 64) (d : Fin 128) :
    Read.val_main_v14 (F := Ideal) x0 x1 x2 x3 x4 x5 (ix2 b d)
      = encoded (fun r k => x0 (ix2 r k)) (fun r => x1 (ix1 r)) (fun i j => x2 (ix2 i j)) (fun j => x3 (ix1 j))
          (fun i j => x4 (ix2 i j)) (fun j => x5 (ix1 j)) b d := by
  unfold Read.val_main_v14
  rw [segSum_apply, Read.val_main_v12_apply, Read.val_main_cst_0_apply, Ideal.ofBits_def, Ideal.ofBits_zero_f32,
    zero_add]
  unfold encoded
  refine Finset.sum_congr rfl fun r _ => ?_
  have hs : Read.idx_main_v13 (ix2 r (0 : Fin 1)) = ix1 r := funext fun a => by
    match a with
    | ⟨0, _⟩ => rfl
  rw [Read.val_main_v13_apply, hidden_eq, hs]

/-- The decoder: segment `b`, output `j`, times the radius. -/
theorem decoded_eq (b : Fin 64) (j : Fin 6144) :
    Read.val_main_v19 (F := Ideal) x0 x1 x2 x3 x4 x5 x6 x7 (ix2 b j) * radius
      = decoded (encoded (fun r k => x0 (ix2 r k)) (fun r => x1 (ix1 r)) (fun i j => x2 (ix2 i j)) (fun j => x3 (ix1 j))
          (fun i j => x4 (ix2 i j)) (fun j => x5 (ix1 j))) (fun d j => x6 (ix2 d j)) (fun j => x7 (ix1 j)) b j := by
  rw [Read.val_main_v19_apply, Read.val_main_v16_apply, Read.val_main_v18_apply, Read.val_main_v17_apply]
  have hl : ∀ k : Fin 128, Read.lidx_main_v16 (ix2 b j) k = ix2 b k := fun k => funext fun a => by
    match a with
    | ⟨0, _⟩ => rfl
    | ⟨1, _⟩ => rfl
  have hr : ∀ k : Fin 128, Read.ridx_main_v16 (ix2 b j) k = ix2 k j := fun k => funext fun a => by
    match a with
    | ⟨0, _⟩ => rfl
    | ⟨1, _⟩ => rfl
  have hb : Read.idx_main_v17 (Read.idx_main_v18 (ix2 b j)) = ix1 j := funext fun a => by
    match a with
    | ⟨0, _⟩ => rfl
  simp only [hl, hr, hb, encoded_eq, Ideal.addf_def]
  rfl

/-- THE REFERENCE'S POINTS are the point-cloud function of the eight argument arrays. -/
theorem points_eq :
    Read.val_main_v32 (F := Ideal) x0 x1 x2 x3 x4 x5 x6 x7 = pointsArr x0 x1 x2 x3 x4 x5 x6 x7 := by
  funext i
  obtain ⟨k, c, rfl⟩ : ∃ (k : Fin 131072) (c : Fin 3), i = ix2 k c := ⟨i 0, i 1, eq_ix2 i⟩
  rw [Read.val_main_v32_apply, Read.val_main_v31_apply, Read.val_main_cst_2_apply, Read.val_main_v20_apply]
  have hi : Read.idx_main_v20 (ix2 k c)
      = ix2 (⟨(3 * k.val + c.val) / 6144, by have := k.isLt; have := c.isLt; omega⟩ : Fin 64)
          (⟨(3 * k.val + c.val) % 6144, Nat.mod_lt _ (by decide)⟩ : Fin 6144) := funext fun a => Fin.ext (by
    match a with
    | ⟨0, _⟩ => show (k.val * 3 + c.val) / 6144 = (3 * k.val + c.val) / 6144; omega
    | ⟨1, _⟩ => show (k.val * 3 + c.val) % 6144 = (3 * k.val + c.val) % 6144; omega)
  rw [hi, Ideal.mulf_def, Ideal.ofBits_def]
  exact decoded_eq x0 x1 x2 x3 x4 x5 x6 x7 _ _

end Cert.ReferenceIdeal.RefValue

end
-- ==== Proof.RefGather.lean ====
/-
  The new segment numbers: output point `k` gets `k / 2048`.

  The reference gathers the list `0, 1, …, 63` at the start indices `k / 2048` (the 64 × 2048 table of row numbers
  read row-major), after the usual wrap of a negative index, which never applies here. A gather's start index is read
  signed and clamped into `[0, 63]`; `k / 2048` is already there, so the element read is the word of `k / 2048`.
-/
import proofs.«158518_g44641890074844_cont_8to1c4_263_1_alg».proof.Proof.Gen.ReferenceIdeal.Read
import proofs.«158518_g44641890074844_cont_8to1c4_263_1_alg».proof.Proof.RefScatter
import proofs.«158518_g44641890074844_cont_8to1c4_263_1_alg».proof.Proof.PointCloudSpec

noncomputable section

namespace Cert.ReferenceIdeal.RefValue

open Cert.ReferenceIdeal Cert.ReferenceIdeal.Gen Idealize.ShloMosaic Idealize.ShloMosaic.ValueIdx

/-- The gather's dimension numbers: one start index per result element, naming the operand's only axis, which is
    collapsed. -/
abbrev takeDims1 : GatherDims S64 S131072x1 S131072 := gather_S64_S131072x1_S131072_n_0_n_n_0_1_1

/-- THE GATHER READ AT `k`: the operand at the start index `idx (k, 0)`, read signed and clamped into `[0, 63]`. -/
theorem take_apply {α : Type} (x : S64.Idx → α) (idx : IVec S131072x1 32) (k : Fin 131072) :
    Host.gather takeDims1 x idx (ix1 k)
      = x (ix1 (⟨min (idx (ix2 k (0 : Fin 1))).toInt.toNat 63, by omega⟩ : Fin 64)) := by
  unfold Host.gather
  refine congrArg x ?_
  funext a
  obtain rfl : a = 0 := Subsingleton.elim _ _
  refine Fin.ext ?_
  show takeDims1.start (ix1 k) idx 0 + takeDims1.batchCoord (ix1 k) 0 + takeDims1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S64.rank) ∈ takeDims1.startIndexMap from List.mem_singleton.mpr rfl)]
  have hsi : takeDims1.siIdx (ix1 k) ⟨List.idxOf (0 : Fin S64.rank) takeDims1.startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- A small natural's word is not below zero as a signed word. -/
theorem cmpi_slt_zero_small (n : Nat) (hn : n < 2147483648) : IntOp.cmpi .slt (BitVec.ofNat 32 n) 0#32 = 0#1 := by
  have h : (BitVec.ofNat 32 n).slt 0#32 = false := by
    rw [BitVec.slt_eq_decide, toInt_ofNat_small n hn, BitVec.toInt_zero]
    exact decide_eq_false (by omega)
  show BitVec.ofBool ((BitVec.ofNat 32 n).slt 0#32) = 0#1
  rw [h]; rfl

/-- The start index of output point `k` is the word of `k / 2048`. -/
theorem startIdx_eq (k : Fin 131072) :
    Read.val_main_v29 (F := Ideal) (ix2 k (0 : Fin 1)) = BitVec.ofNat 32 (k.val / 2048) := by
  rw [Read.val_main_v29_apply, Read.val_main_v28_apply, Read.val_main_v25_apply, Read.val_main_v23_apply,
    Read.val_main_v22_apply, Read.val_main_v21_apply, Read.val_main_v24_apply, Read.val_main_c_apply]
  show Scalar.select (IntOp.cmpi .slt (BitVec.ofNat 32 (k.val / 2048)) 0#32) _ (BitVec.ofNat 32 (k.val / 2048)) = _
  rw [cmpi_slt_zero_small _ (by have := k.isLt; omega), select_zero]

/-- The clamped start index of output point `k` is `k / 2048` itself. -/
theorem clampedStart_eq (k : Fin 131072) :
    min (Read.val_main_v29 (F := Ideal) (ix2 k (0 : Fin 1))).toInt.toNat 63 = k.val / 2048 := by
  rw [startIdx_eq, toInt_ofNat_small _ (by have := k.isLt; omega)]
  have := k.isLt
  omega

/-- THE REFERENCE'S NEW SEGMENT NUMBERS are `k / 2048`. -/
theorem clusterIds_eq : Read.val_main_v30 (F := Ideal) = Cert.PointCloud.clusterIdsArr := by
  funext i
  obtain ⟨k, rfl⟩ : ∃ k : Fin 131072, i = ix1 k := ⟨i 0, eq_ix1 i⟩
  refine (take_apply (Read.val_main_v15 (F := Ideal)) (Read.val_main_v29 (F := Ideal)) k).trans ?_
  refine (Read.val_main_v15_apply (F := Ideal) _).trans ?_
  refine congrArg (BitVec.ofNat 32) ?_
  exact clampedStart_eq k

end Cert.ReferenceIdeal.RefValue

end
-- ==== Proof.lean ====
/-
  The kernel and the reference compute one function on the extended reals.

  Per point the two dense layers with their rectified linear units, per segment the sum of the hidden vectors of
  the points carrying its number, then the decoder, its 6144 numbers per segment read as 2048 points; the new
  segment number of output point `k` is `k / 2048`. The kernel does the segment sum 4096 points at a time, as a
  product with a matrix of ones and zeros added into an accumulator that lives across the grid, on an input
  padded to 25 blocks with rows that belong to no segment; the reference does it as one scatter-add, and reads
  the segment numbers off a table through a gather. On the extended reals a sum does not depend on how it is
  grouped, a product with one is the factor and a product with zero is zero, so both are the function
  `Cert.PointCloud.pointsArr` of the argument arrays, and both lists of segment numbers are
  `Cert.PointCloud.clusterIdsArr`. No finiteness of the inputs is used.

  The ideal pass rewrote nothing in the kernel, so the preservation claim is trivial. The kernel's frames are the
  generated ones; the reference's frame is its generated run with the results dropped.
-/
import proofs.«158518_g44641890074844_cont_8to1c4_263_1_alg».proof.Defs
import proofs.«158518_g44641890074844_cont_8to1c4_263_1_alg».proof.Proof.Gen.Kernel
import proofs.«158518_g44641890074844_cont_8to1c4_263_1_alg».proof.Proof.Gen.Kernel.Skeleton
import proofs.«158518_g44641890074844_cont_8to1c4_263_1_alg».proof.Proof.Gen.Kernel.Launch
import proofs.«158518_g44641890074844_cont_8to1c4_263_1_alg».proof.Proof.Gen.Kernel.Points
import proofs.«158518_g44641890074844_cont_8to1c4_263_1_alg».proof.Proof.Gen.Kernel.Frame
import proofs.«158518_g44641890074844_cont_8to1c4_263_1_alg».proof.Proof.Gen.KernelIdeal
import proofs.«158518_g44641890074844_cont_8to1c4_263_1_alg».proof.Proof.Gen.KernelIdeal.Skeleton
import proofs.«158518_g44641890074844_cont_8to1c4_263_1_alg».proof.Proof.Gen.KernelIdeal.Launch
import proofs.«158518_g44641890074844_cont_8to1c4_263_1_alg».proof.Proof.Gen.KernelIdeal.Points
import proofs.«158518_g44641890074844_cont_8to1c4_263_1_alg».proof.Proof.Gen.KernelIdeal.Frame
import proofs.«158518_g44641890074844_cont_8to1c4_263_1_alg».proof.Proof.Gen.ReferenceIdeal
import proofs.«158518_g44641890074844_cont_8to1c4_263_1_alg».proof.Proof.Gen.ReferenceIdeal.Run
import proofs.«158518_g44641890074844_cont_8to1c4_263_1_alg».proof.Proof.Gen.ReferenceIdeal.Read
import proofs.«158518_g44641890074844_cont_8to1c4_263_1_alg».proof.Proof.Gen.Pre_finite_inputs
import proofs.«158518_g44641890074844_cont_8to1c4_263_1_alg».proof.Proof.KernelResult
import proofs.«158518_g44641890074844_cont_8to1c4_263_1_alg».proof.Proof.RefStages
import proofs.«158518_g44641890074844_cont_8to1c4_263_1_alg».proof.Proof.RefGather
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_reference : Cert.frame_ReferenceIdeal :=
  fun m ρ _ => (θ_run Cert.ReferenceIdeal.defs _ _).mono (fun _ h c => (h c).2.2.2.2)
    (Cert.ReferenceIdeal.Value.run (F := Ideal) m ρ)

/-- From memories that agree on the arguments both programs end with the points at `pointsArr` and the segment
    numbers at `clusterIdsArr` of the kernel's arguments, and with the first two arguments passed through. -/
theorem algebraic : Cert.algebraic_KernelIdeal_ReferenceIdeal := by
  intro m ρ m' ρ' _ hagree
  refine ⟨_, _, _, _, Cert.KernelIdeal.Result.run m ρ, ?_⟩
  refine (θ_run Cert.ReferenceIdeal.defs _ _).mono (fun _ h c => ?_) (Cert.ReferenceIdeal.Value.run (F := Ideal) m' ρ')
  obtain ⟨r0, r1, r2, r3, rest⟩ := h c
  obtain ⟨a0, a1, a2, a3, a4, a5, a6, a7⟩ := hagree c
  refine ⟨r0.trans a0, r1.trans a1, r2.trans ?_, r3.trans ?_, rest⟩
  · rw [Cert.ReferenceIdeal.Read.val_main_v32_eq (F := Ideal), Cert.ReferenceIdeal.RefValue.points_eq, a0, a1, a2, a3, a4, a5, a6, a7]
  · rw [Cert.ReferenceIdeal.Read.val_main_v30_eq (F := Ideal), Cert.ReferenceIdeal.RefValue.clusterIds_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
